-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S128x128 : Shape := ⟨2, ![128, 128]⟩
abbrev S_ : Shape := ⟨0, ![]⟩
abbrev S1x640000 : Shape := ⟨2, ![1, 640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  slices_S2x640000_S1x640000_1_0 : S2x640000.Slices ![1, 0] S1x640000
  shapeCasts_S1x640000_S640000 : S1x640000.ShapeCasts S640000

variable [Facts]

def fn_part1 {F : FTy → Type} [FloatOps F] (main_arg1 : IVec S2x640000 32) (main_v13 : IVec S_ 1) (main_v15 : IVec S640000 32) (main_v16 : IVec S640000 32) : IVec S_ 1 :=
  let main_v17 : IVec S640000 1 := cmpi .sge main_v15 main_v16
  let main_v18 : IVec S1x640000 32 := (extractStridedSlice S1x640000 ![1, 0] · slices_S2x640000_S1x640000_1_0) main_arg1
  let main_v19 : IVec S640000 32 := shapeCast S640000 main_v18 shapeCasts_S1x640000_S640000
  let main_c_5 : IVec S_ 32 := constantI S_ 32 50000#32
  let main_v20 : IVec S640000 32 := broadcastInDim S640000 ![] bcast_S_S640000 main_c_5
  let main_v21 : IVec S640000 1 := cmpi .slt main_v19 main_v20
  let main_v22 : IVec S640000 1 := andi main_v17 main_v21
  let main_c_6 : IVec S_ 1 := constantI S_ 1 1#1
  let main_v23 : IVec S_ 1 := (fun x v => Host.reduce IntOp.andi x v reducesTo_S640000_S_d0 h_S_) main_v22 main_c_6
  let main_v24 : IVec S_ 1 := andi main_v13 main_v23
  main_v24

def fn {F : FTy → Type} [FloatOps F] (main_arg0 : FVec F S50000x128 .f32) (main_arg1 : IVec S2x640000 32) (main_arg2 : FVec F S640000 .f32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x640000 32 := (extractStridedSlice S1x640000 ![1, 0] · slices_S2x640000_S1x640000_1_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg1 main_v13 main_v15 main_v16
-- ==== Kernel.lean ====
abbrev S50000x128 : Shape := ⟨2, ![50000, 128]⟩
abbrev S2x640000 : Shape := ⟨2, ![2, 640000]⟩
abbrev S640000 : Shape := ⟨1, ![640000]⟩
abbrev S128x128 : Shape := ⟨2, ![128, 128]⟩
abbrev S1x640000 : Shape := ⟨2, ![1, 640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S5000x128 : Shape := ⟨2, ![5000, 128]⟩

abbrev nBuf : Space → Nat
  | .hbm => 90
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S50000, .i32⟩
  | .hbm, ⟨10, _⟩ => ⟨S_, .i32⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S_, .i32⟩
  | .hbm, ⟨23, _⟩ => ⟨S640000, .i32⟩
  | .hbm, ⟨24, _⟩ => ⟨S50000, .i32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S_, .i32⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S_, .i32⟩
  | .hbm, ⟨41, _⟩ => ⟨S640000, .i32⟩
  | .hbm, ⟨42, _⟩ => ⟨S50000, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000, .f32⟩
  | .hbm, ⟨71, _⟩ => ⟨S640000, .f32⟩
  | .hbm, ⟨72, _⟩ => ⟨S640000, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x128, .f32⟩
  | .hbm, ⟨82, _⟩ => ⟨S640000x1, .f32⟩
  | .hbm, ⟨83, _⟩ => ⟨S640000x128, .f32⟩
  | .hbm, ⟨84, _⟩ => ⟨S640000x128, .f32⟩
  | .hbm, ⟨85, _⟩ => ⟨S_, .f32⟩
  | .hbm, ⟨86, _⟩ => ⟨S50000x128, .f32⟩
  | .hbm, ⟨87, _⟩ => ⟨S640000x1, .i32⟩
  | .hbm, ⟨88, _⟩ => ⟨S50000x128, .f32⟩
  | .hbm, ⟨89, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_c_5 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v60) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S128x128 : Shape := ⟨2, ![128, 128]⟩
abbrev S1x640000 : Shape := ⟨2, ![1, 640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S50000, .i32⟩
  | .hbm, ⟨10, _⟩ => ⟨S_, .i32⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S_, .i32⟩
  | .hbm, ⟨23, _⟩ => ⟨S640000, .i32⟩
  | .hbm, ⟨24, _⟩ => ⟨S50000, .i32⟩
  | .hbm, ⟨25, _⟩ => ⟨S50000, .f32⟩
  | .hbm, ⟨26, _⟩ => ⟨S_, .i32⟩
  | .hbm, ⟨27, _⟩ => ⟨S640000, .i32⟩
  | .hbm, ⟨28, _⟩ => ⟨S_, .i32⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S640000, .f32⟩
  | .hbm, ⟨49, _⟩ => ⟨S640000, .f32⟩
  | .hbm, ⟨50, _⟩ => ⟨S_, .f32⟩
  | .hbm, ⟨51, _⟩ => ⟨S640000, .f32⟩
  | .hbm, ⟨52, _⟩ => ⟨S640000, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000, .f32⟩
  | .hbm, ⟨71, _⟩ => ⟨S640000, .f32⟩
  | .hbm, ⟨72, _⟩ => ⟨S640000, .f32⟩
  | .hbm, ⟨73, _⟩ => ⟨S50000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x128, .f32⟩
  | .hbm, ⟨83, _⟩ => ⟨S640000x1, .f32⟩
  | .hbm, ⟨84, _⟩ => ⟨S640000x128, .f32⟩
  | .hbm, ⟨85, _⟩ => ⟨S640000x128, .f32⟩
  | .hbm, ⟨86, _⟩ => ⟨S_, .f32⟩
  | .hbm, ⟨87, _⟩ => ⟨S50000x128, .f32⟩
  | .hbm, ⟨88, _⟩ => ⟨S640000x1, .i32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_c_5 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_15 : Ref sig .tc := ⟨.hbm, 74, rfl⟩
abbrev main_v49 : Ref sig .tc := ⟨.hbm, 75, rfl⟩
abbrev main_v50 : Ref sig .tc := ⟨.hbm, 76, rfl⟩
abbrev main_c_16 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  scatter_S50000_S640000x1_S640000_n_0_0_1_wf : ScatterDims.WF S50000 S640000x1 S640000 [] [0] [0] 1
  scatter_S640000_S640000x1_S640000_n_0_0_1_wf : ScatterDims.WF S640000 S640000x1 S640000 [] [0] [0] 1
  gather_S50000_S640000x1_S640000_n_0_n_n_0_1_1_wf : GatherDims.WF S50000 S640000x1 S640000 [] [0] [] [0] [] 1 ![1]
  gather_S640000_S640000x1_S640000_n_0_n_n_0_1_1_wf : GatherDims.WF S640000 S640000x1 S640000 [] [0] [] [0] [] 1 ![1]
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def scatter_S640000_S640000x1_S640000_n_0_0_1 : ScatterDims S640000 S640000x1 S640000 where
  updateWindowDims := []
  insertedWindowDims := [0]
  scatterDimsToOperandDims := [0]
  indexVectorDim := 1
  wf := scatter_S640000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S640000_S640000x1_S640000_n_0_n_n_0_1_1 : GatherDims S640000 S640000x1 S640000 where
  offsetDims := []
  collapsedSliceDims := [0]
  operandBatchingDims := []
  startIndicesBatchingDims := []
  startIndexMap := [0]
  indexVectorDim := 1
  sliceSizes := ![1]
  wf := gather_S640000_S640000x1_S640000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«171437_j34454227648547_2_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.PreDecode.lean ====
/-
  The precondition on the inputs, read back. The printed predicate is the "and" of four all-reductions: every entry
  of the three real arrays has absolute value below +∞, and every entry of row 1 of the [2, 640000] integer array lies
  in [0, 50000), compared signed. Stated to be 1, it says: every entry of the three real arrays is a real number, and
  every entry of row 1 of the integer array, read as a signed integer, lies in [0, 50000).
-/
import proofs.«171437_j34454227648547_2_alg».proof.Pre_finite_inputs
import proofs.«171437_j34454227648547_2_alg».proof.Proof.Gen.Pre_finite_inputs
import proofs.«171437_j34454227648547_2_alg».proof.Proof.LibFinite
import proofs.«171437_j34454227648547_2_alg».proof.Proof.LibReal
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx
open Cert.Pre_finite_inputs
open Cert.Lib.Real (IsReal)

/-- Row 1 of a [2, 640000] array, sliced out as [1, 640000] and reshaped to [640000], read at e is the entry (1, e). -/
theorem row1_apply {α : Type} (x1 : S2x640000.Idx → α) (hs : S2x640000.Slices ![1, 0] S1x640000)
    (hc : S1x640000.ShapeCasts S640000) (e : Fin 640000) :
    shapeCast S640000 (extractStridedSlice S1x640000 ![1, 0] x1 hs) hc (ix1 e) = x1 (ix2 (1 : Fin 2) e) := by
  refine (shapeCast_apply _ hc (ix1 e) (ix2 (0 : Fin 1) e) ?_).trans ?_
  · rw [Shape.rowMajor_val_two, Shape.rowMajor_val_one]
    show (0 : Nat) * _ + e.val = e.val
    omega
  · refine extractStridedSlice_apply ![1, 0] x1 hs (ix2 (0 : Fin 1) e) (ix2 (1 : Fin 2) e) (fun a => ?_)
    match a with
    | ⟨0, _⟩ => rfl
    | ⟨1, _⟩ => show e.val = 0 + e.val; omega

/-- A 32-bit word that tests "≥ 0" and "< 50000", both signed, lies in [0, 50000) as a signed integer. -/
theorem range_of_cmp (v : BitVec 32)
    (h : IntOp.andi (IntOp.cmpi .sge v 0#32) (IntOp.cmpi .slt v 50000#32) = 1#1) : 0 ≤ v.toInt ∧ v.toInt < 50000 := by
  obtain ⟨h0, h1⟩ := IntOp.andi_eq_one.1 h
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  exact ⟨h0, h1⟩

/-- The precondition decoded: the three real arrays hold real numbers, and row 1 of the integer array holds signed
    integers in [0, 50000). -/
theorem decode (x0 : FVec Ideal Cert.Pre_finite_inputs.S50000x128 .f32) (x1 : IVec Cert.Pre_finite_inputs.S2x640000 32)
    (x2 : FVec Ideal Cert.Pre_finite_inputs.S640000 .f32) (x3 : FVec Ideal Cert.Pre_finite_inputs.S128x128 .f32)
    (h : Cert.Pre_finite_inputs.fn (F := Ideal) x0 x1 x2 x3 = fun _ => 1#1) :
    (∀ i, Cert.Lib.Real.IsReal (x0 i)) ∧ (∀ i, Cert.Lib.Real.IsReal (x2 i)) ∧ (∀ i, Cert.Lib.Real.IsReal (x3 i)) ∧
    (∀ e : Fin 640000, 0 ≤ (x1 (Idealize.ShloMosaic.ValueIdx.ix2 (1 : Fin 2) e)).toInt ∧
      (x1 (Idealize.ShloMosaic.ValueIdx.ix2 (1 : Fin 2) e)).toInt < 50000) := by
  have h0 := congrFun h ValueIdx.ix0
  dsimp only [fn, fn_part1] at h0
  obtain ⟨h123, hd⟩ := IntOp.andi_eq_one.1 h0
  obtain ⟨h12, hc⟩ := IntOp.andi_eq_one.1 h123
  obtain ⟨ha, hb⟩ := IntOp.andi_eq_one.1 h12
  refine ⟨?_, ?_, ?_, ?_⟩
  · exact Cert.Lib.Finite.allReal_of_all_finite x0 _ _ _ ha
  · exact Cert.Lib.Finite.allReal_of_all_finite x2 _ _ _ hb
  · exact Cert.Lib.Finite.allReal_of_all_finite x3 _ _ _ hc
  · intro e
    have hp := Host.reduce_andi_all _ _ _ _ _ hd (ix1 e)
    rw [← row1_apply x1 Facts.slices_S2x640000_S1x640000_1_0 Facts.shapeCasts_S1x640000_S640000 e]
    exact range_of_cmp _ hp

end Cert.PreDecode

end
-- ==== Proof.LibSegmentRows.lean ====
/-
  Row gathers and row scatter-adds read at an index, and the linearity law that moves a matrix product across a
  segment sum.

  A row gather takes rows of an N × C table at an E × 1 array of signed start indices: result row e is the table's
  row at the start index clamped into [0, N − 1]. A row scatter-add adds the rows of an E × C array of updates into
  an N × C table: update row e lands on table row i exactly when its start index, read signed, IS i (no clamping: a
  start index outside [0, N − 1] drops the update). The one-column forms (a vector of N entries, E updates) are
  stated next to them. Last, the algebra: for real-valued data, multiplying every summand's row by a fixed matrix
  and weighting it commutes with the finite sum.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.SegmentRows

open Idealize.ShloMosaic Idealize.ShloMosaic.ValueIdx

/-! ## The four dimension records -/

/-- Gather of rows: operand N × C, start indices E × 1, result E × C; the start index names the row (axis 0, collapsed),
    the column axis is the one offset axis, read whole. -/
abbrev rowsG (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of entries: operand of N entries, start indices E × 1, result of E entries. -/
abbrev entriesG (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of rows: operand N × C, scatter indices E × 1, updates E × C; the index names the row (axis 0, inserted),
    the updates' column axis is the one window axis. -/
abbrev rowsS (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of entries: operand of N entries, scatter indices E × 1, E updates. -/
abbrev entriesS (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Gathers at an index -/

/-- The row a gather reads for position e: the start index read signed and clamped into [0, N − 1]. -/
def srcRow {N E w : Nat} (hN : 0 < N) (idx : IVec ⟨2, ![E, 1]⟩ w) (e : Fin E) : Fin N :=
  ⟨min (idx (ix2 e 0)).toInt.toNat (N - 1), by omega⟩

/-! ## Coordinates of an index, typed by the extent itself -/

section Coords

/-- The row coordinate of a rank-2 index, as an element of Fin n0. -/
abbrev row2 {n0 n1 : Nat} (q : (⟨2, ![n0, n1]⟩ : Shape).Idx) : Fin n0 := ⟨(q 0).val, idx2_lt0 q⟩
/-- The column coordinate of a rank-2 index, as an element of Fin n1. -/
abbrev col2 {n0 n1 : Nat} (q : (⟨2, ![n0, n1]⟩ : Shape).Idx) : Fin n1 := ⟨(q 1).val, idx2_lt1 q⟩
/-- A rank-2 index is ix2 of its row and column. -/
theorem eq_ix2_row_col {n0 n1 : Nat} (q : (⟨2, ![n0, n1]⟩ : Shape).Idx) : q = ix2 (row2 q) (col2 q) := by
  funext a; match a with | ⟨0, _⟩ => rfl | ⟨1, _⟩ => rfl
/-- The coordinate of a rank-1 index, as an element of Fin n. -/
abbrev pos1 {n : Nat} (q : (⟨1, ![n]⟩ : Shape).Idx) : Fin n := ⟨(q 0).val, (q 0).isLt⟩
/-- A rank-1 index is ix1 of its coordinate. -/
theorem eq_ix1_pos {n : Nat} (q : (⟨1, ![n]⟩ : Shape).Idx) : q = ix1 (pos1 q) := by
  funext a; match a with | ⟨0, _⟩ => rfl

end Coords
section Gather
variable {α : Type}

/-- In Fin 2, 1 is not 0. -/
theorem fin2_one_ne_zero : (1 : Fin 2) ≠ 0 := by decide

/-- Axis 0 of the operand index a row gather reads at (e, c): the clamped start index. -/
theorem rowsG_operandIdx_zero {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    ((rowsG N E C wf).operandIdx (ix2 e c) idx 0).val = min (idx (ix2 e 0)).toInt.toNat (N - 1) := by
  show (rowsG N E C wf).start (ix2 e c) idx 0 + (rowsG N E C wf).batchCoord (ix2 e c) 0
      + (rowsG N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsG N E C wf).startIndexMap from List.mem_singleton.mpr rfl)]
  have hsi : (rowsG N E C wf).siIdx (ix2 e c) ⟨List.idxOf (0 : Fin 2) (rowsG N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Axis 1 of the operand index a row gather reads at (e, c): the column c. -/
theorem rowsG_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    ((rowsG N E C wf).operandIdx (ix2 e c) idx 1).val = c.val := by
  show (rowsG N E C wf).start (ix2 e c) idx 1 + (rowsG N E C wf).batchCoord (ix2 e c) 1
      + (rowsG N E C wf).offCoord (ix2 e c) 1 = _
  rw [GatherDims.batchCoord_eq_zero _ _ _ List.not_mem_nil]
  have hs : (rowsG N E C wf).start (ix2 e c) idx 1 = 0 := by
    unfold GatherDims.start
    rw [dif_neg (show ¬ (1 : Fin 2) ∈ (rowsG N E C wf).startIndexMap from fun h => fin2_one_ne_zero (List.mem_singleton.mp h))]
  rw [hs]
  simp only [Nat.add_zero, Nat.zero_add]
  rfl

/-- THE ROW GATHER AT (e, c): the operand at row srcRow e, column c. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsG N E C wf) x idx (ix2 e c) = x (ix2 (srcRow hN idx e) c) := by
  unfold Host.gather
  congr 1
  funext a
  match a with
  | ⟨0, _⟩ => exact Fin.ext (rowsG_operandIdx_zero wf idx e c)
  | ⟨1, _⟩ => exact Fin.ext (rowsG_operandIdx_one wf idx e c)

/-- THE ENTRY GATHER AT e: the operand at entry srcRow e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesG N E wf) x idx (ix1 e) = x (ix1 (srcRow hN idx e)) := by
  unfold Host.gather
  congr 1
  funext a
  obtain rfl : a = 0 := Subsingleton.elim _ _
  refine Fin.ext ?_
  show (entriesG N E wf).start (ix1 e) idx 0 + (entriesG N E wf).batchCoord (ix1 e) 0
      + (entriesG N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesG N E wf).startIndexMap from List.mem_singleton.mpr rfl)]
  have hsi : (entriesG N E wf).siIdx (ix1 e) ⟨List.idxOf (0 : Fin 1) (entriesG N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Scatter-adds at an index -/

section Scatter

/-- An operand axis is kept by a scatter (receives a window axis) exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- A row scatter's start on axis 0 for update (e, c): the scatter index of row e, read signed. -/
theorem rowsS_start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsS N E C wf).start (ix2 e c) idx 0 = (idx (ix2 e 0)).toInt := by
  unfold ScatterDims.start
  rw [dif_pos (show (0 : Fin 2) ∈ (rowsS N E C wf).scatterDimsToOperandDims from List.mem_singleton.mpr rfl)]
  have hsi : (rowsS N E C wf).siIdx (ix2 e c) ⟨List.idxOf (0 : Fin 2) (rowsS N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- A row scatter's start on axis 1 is 0: the scatter index names the row only. -/
theorem rowsS_start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowsS N E C wf).start j idx 1 = 0 := by
  unfold ScatterDims.start
  rw [dif_neg (show ¬ (1 : Fin 2) ∈ (rowsS N E C wf).scatterDimsToOperandDims from fun h => fin2_one_ne_zero (List.mem_singleton.mp h))]

/-- A row scatter's window coordinate on axis 0 is 0: the row axis is inserted. -/
theorem rowsS_window_zero {N E C : Nat} (wf : ScatterDims.WF ⟨2, ![N, C]⟩ ⟨2, ![E, 1]⟩ ⟨2, ![E, C]⟩ [1] [0] [0] 1)
    (j : (⟨2, ![E, C]⟩ : Shape).Idx) : (rowsS N E C wf).window j 0 = 0 := by
  unfold ScatterDims.window
  rw [dif_neg (show ¬ (0 : Fin 2) ∈ (rowsS N E C wf).sKept from fun h => (scatter_mem_sKept _ _).mp h (List.mem_singleton.mpr rfl))]

/-- A row scatter's window coordinate on axis 1 is the update's column. -/
theorem rowsS_window_one {N E C : Nat} (wf : ScatterDims.WF ⟨2, ![N, C]⟩ ⟨2, ![E, 1]⟩ ⟨2, ![E, C]⟩ [1] [0] [0] 1)
    (e : Fin E) (c : Fin C) : (rowsS N E C wf).window (ix2 e c) 1 = c.val := by
  unfold ScatterDims.window
  rw [dif_pos (show (1 : Fin 2) ∈ (rowsS N E C wf).sKept from (scatter_mem_sKept _ _).mpr fun h => fin2_one_ne_zero (List.mem_singleton.mp h))]
  rfl

/-- WHERE A ROW UPDATE LANDS: update (e, c) lands on (i, j) exactly when row e's scatter index, read signed, is i
    and c = j. -/
theorem rowsS_resultIdx_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (i : Fin N) (j : Fin C) :
    (rowsS N E C wf).resultIdx? (ix2 e c) idx = some (ix2 i j) ↔ (idx (ix2 e 0)).toInt = (i.val : ℤ) ∧ c = j := by
  have h0 := rowsS_start_zero wf idx e c
  have h1 := rowsS_start_one wf idx (ix2 e c)
  have w0 := rowsS_window_zero wf (ix2 e c)
  have w1 := rowsS_window_one wf e c
  unfold ScatterDims.resultIdx?
  constructor
  · intro h
    split at h
    · rename_i hall
      have hf := Option.some.inj h
      have e0 : ((rowsS N E C wf).start (ix2 e c) idx 0 + ((rowsS N E C wf).window (ix2 e c) 0 : ℤ)).toNat = i.val :=
        congrArg Fin.val (congrFun hf 0)
      have e1 : ((rowsS N E C wf).start (ix2 e c) idx 1 + ((rowsS N E C wf).window (ix2 e c) 1 : ℤ)).toNat = j.val :=
        congrArg Fin.val (congrFun hf 1)
      have p0 := (hall 0).1
      rw [h0, w0] at e0 p0
      rw [h1, w1] at e1
      refine ⟨by omega, Fin.ext (by omega)⟩
    · exact absurd h (by simp)
  · rintro ⟨hi, rfl⟩
    have hall : ∀ a, 0 ≤ (rowsS N E C wf).start (ix2 e c) idx a + ((rowsS N E C wf).window (ix2 e c) a : ℤ) ∧
        (rowsS N E C wf).start (ix2 e c) idx a + ((rowsS N E C wf).window (ix2 e c) a : ℤ)
          < ((⟨2, ![N, C]⟩ : Shape).size a : ℤ) := by
      intro a
      match a with
      | ⟨0, _⟩ =>
        show 0 ≤ (rowsS N E C wf).start (ix2 e c) idx 0 + ((rowsS N E C wf).window (ix2 e c) 0 : ℤ) ∧
          (rowsS N E C wf).start (ix2 e c) idx 0 + ((rowsS N E C wf).window (ix2 e c) 0 : ℤ) < (N : ℤ)
        rw [h0, w0, hi]; have := i.isLt; omega
      | ⟨1, _⟩ =>
        show 0 ≤ (rowsS N E C wf).start (ix2 e c) idx 1 + ((rowsS N E C wf).window (ix2 e c) 1 : ℤ) ∧
          (rowsS N E C wf).start (ix2 e c) idx 1 + ((rowsS N E C wf).window (ix2 e c) 1 : ℤ) < (C : ℤ)
        rw [h1, w1]; have := c.isLt; omega
    rw [dif_pos hall]
    congr 1
    funext a
    refine Fin.ext ?_
    match a with
    | ⟨0, _⟩ =>
      show ((rowsS N E C wf).start (ix2 e c) idx 0 + ((rowsS N E C wf).window (ix2 e c) 0 : ℤ)).toNat = i.val
      rw [h0, w0, hi]; simp
    | ⟨1, _⟩ =>
      show ((rowsS N E C wf).start (ix2 e c) idx 1 + ((rowsS N E C wf).window (ix2 e c) 1 : ℤ)).toNat = c.val
      rw [h1, w1]; simp

end Scatter

section ScatterApply

/-- THE ROW SCATTER-ADD AT (i, j): the operand's element plus the updates' column-j entries over the rows e whose
    scatter index, read signed, is i. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowsS N E C wf) x idx upd (ix2 i j)
      = x (ix2 i j) + ∑ e ∈ Finset.univ.filter (fun e : Fin E => (idx (ix2 e 0)).toInt = (i.val : ℤ)), upd (ix2 e j) := by
  unfold Ideal.hostScatterAdd
  congr 1
  have key : ∀ q : (⟨2, ![E, C]⟩ : Shape).Idx, (rowsS N E C wf).resultIdx? q idx = some (ix2 i j) →
      (idx (ix2 (row2 q) 0)).toInt = (i.val : ℤ) ∧ q = ix2 (row2 q) j := by
    intro q hq
    have hq' := hq
    rw [eq_ix2_row_col q] at hq'
    obtain ⟨h1, h2⟩ := (rowsS_resultIdx_iff wf idx (row2 q) (col2 q) i j).mp hq'
    refine ⟨h1, ?_⟩
    rw [← h2]
    exact eq_ix2_row_col q
  refine Finset.sum_nbij' (fun q => row2 q) (fun e => ix2 e j) ?_ ?_ ?_ ?_ ?_
  · intro q hq
    rw [Finset.mem_filter] at hq ⊢
    exact ⟨Finset.mem_univ _, (key q hq.2).1⟩
  · intro e he
    rw [Finset.mem_filter] at he ⊢
    exact ⟨Finset.mem_univ _, (rowsS_resultIdx_iff wf idx e j i j).mpr ⟨he.2, rfl⟩⟩
  · intro q hq
    rw [Finset.mem_filter] at hq
    exact (key q hq.2).2.symm
  · intro e _
    rfl
  · intro q hq
    rw [Finset.mem_filter] at hq
    exact congrArg upd (key q hq.2).2

end ScatterApply

section ScatterEntries

/-- An entry scatter's start for update e: the scatter index of e, read signed. -/
theorem entriesS_start_zero {N E w : Nat} (wf : ScatterDims.WF ⟨1, ![N]⟩ ⟨2, ![E, 1]⟩ ⟨1, ![E]⟩ [] [0] [0] 1)
    (idx : IVec ⟨2, ![E, 1]⟩ w) (e : Fin E) :
    (entriesS N E wf).start (ix1 e) idx 0 = (idx (ix2 e 0)).toInt := by
  unfold ScatterDims.start
  rw [dif_pos (show (0 : Fin 1) ∈ (entriesS N E wf).scatterDimsToOperandDims from List.mem_singleton.mpr rfl)]
  have hsi : (entriesS N E wf).siIdx (ix1 e) ⟨List.idxOf (0 : Fin 1) (entriesS N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- An entry scatter's window coordinate is 0: the one operand axis is inserted. -/
theorem entriesS_window_zero {N E : Nat} (wf : ScatterDims.WF ⟨1, ![N]⟩ ⟨2, ![E, 1]⟩ ⟨1, ![E]⟩ [] [0] [0] 1)
    (j : (⟨1, ![E]⟩ : Shape).Idx) : (entriesS N E wf).window j 0 = 0 := by
  unfold ScatterDims.window
  rw [dif_neg (show ¬ (0 : Fin 1) ∈ (entriesS N E wf).sKept from
    fun h => (scatter_mem_sKept _ _).mp h (List.mem_singleton.mpr rfl))]

/-- WHERE AN ENTRY UPDATE LANDS: update e lands on entry i exactly when its scatter index, read signed, is i. -/
theorem entriesS_resultIdx_iff {N E w : Nat} (wf : ScatterDims.WF ⟨1, ![N]⟩ ⟨2, ![E, 1]⟩ ⟨1, ![E]⟩ [] [0] [0] 1)
    (idx : IVec ⟨2, ![E, 1]⟩ w) (e : Fin E) (i : Fin N) :
    (entriesS N E wf).resultIdx? (ix1 e) idx = some (ix1 i) ↔ (idx (ix2 e 0)).toInt = (i.val : ℤ) := by
  have h0 := entriesS_start_zero wf idx e
  have w0 := entriesS_window_zero wf (ix1 e)
  unfold ScatterDims.resultIdx?
  constructor
  · intro h
    split at h
    · rename_i hall
      have hf := Option.some.inj h
      have e0 : ((entriesS N E wf).start (ix1 e) idx 0 + ((entriesS N E wf).window (ix1 e) 0 : ℤ)).toNat = i.val :=
        congrArg Fin.val (congrFun hf 0)
      have p0 := (hall 0).1
      rw [h0, w0] at e0 p0
      omega
    · exact absurd h (by simp)
  · intro hi
    have hall : ∀ a, 0 ≤ (entriesS N E wf).start (ix1 e) idx a + ((entriesS N E wf).window (ix1 e) a : ℤ) ∧
        (entriesS N E wf).start (ix1 e) idx a + ((entriesS N E wf).window (ix1 e) a : ℤ)
          < ((⟨1, ![N]⟩ : Shape).size a : ℤ) := by
      intro a
      obtain rfl : a = 0 := Subsingleton.elim _ _
      show 0 ≤ (entriesS N E wf).start (ix1 e) idx 0 + ((entriesS N E wf).window (ix1 e) 0 : ℤ) ∧
        (entriesS N E wf).start (ix1 e) idx 0 + ((entriesS N E wf).window (ix1 e) 0 : ℤ) < (N : ℤ)
      rw [h0, w0, hi]; have := i.isLt; omega
    rw [dif_pos hall]
    congr 1
    funext a
    obtain rfl : a = 0 := Subsingleton.elim _ _
    refine Fin.ext ?_
    show ((entriesS N E wf).start (ix1 e) idx 0 + ((entriesS N E wf).window (ix1 e) 0 : ℤ)).toNat = i.val
    rw [h0, w0, hi]; simp

/-- THE ENTRY SCATTER-ADD AT i: the operand's entry plus the updates e whose scatter index, read signed, is i. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (i : Fin N) :
    Ideal.hostScatterAdd (entriesS N E wf) x idx upd (ix1 i)
      = x (ix1 i) + ∑ e ∈ Finset.univ.filter (fun e : Fin E => (idx (ix2 e 0)).toInt = (i.val : ℤ)), upd (ix1 e) := by
  unfold Ideal.hostScatterAdd
  congr 1
  refine Finset.sum_nbij' (fun q => pos1 q) (fun e => ix1 e) ?_ ?_ ?_ ?_ ?_
  · intro q hq
    rw [Finset.mem_filter] at hq ⊢
    have hq2 := hq.2
    rw [eq_ix1_pos q] at hq2
    exact ⟨Finset.mem_univ _, (entriesS_resultIdx_iff wf idx (pos1 q) i).mp hq2⟩
  · intro e he
    rw [Finset.mem_filter] at he ⊢
    exact ⟨Finset.mem_univ _, (entriesS_resultIdx_iff wf idx e i).mpr he.2⟩
  · intro q _
    exact (eq_ix1_pos q).symm
  · intro e _
    rfl
  · intro q _
    exact congrArg upd (eq_ix1_pos q)

end ScatterEntries

/-! ## Real-valued extended reals, and the linearity law -/

section Algebra

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two real-valued extended reals is real-valued. -/
theorem isReal_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two real-valued extended reals is real-valued. -/
theorem isReal_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real-valued extended reals is real-valued. -/
theorem isReal_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact isReal_add (hf a (Finset.mem_insert_self a s)) (ih fun i hi => hf i (Finset.mem_insert_of_mem hi))

/-- The reciprocal square root of a positive real is real-valued. -/
theorem rsqrt_isReal_of_pos (r : ℝ) (h : 0 < r) : ∃ r' : ℝ, Ideal.rsqrt (r : EReal) = (r' : EReal) :=
  ⟨(Real.sqrt r)⁻¹, by rw [Ideal.rsqrt_coe, if_neg (not_lt.2 h.le), if_neg h.ne']⟩

/-- THE LINEARITY LAW: for real-valued data, projecting each summand's row by W and weighting it by n, then summing
    over S, is summing the weighted rows over S and projecting the sum by W. (On the extended reals a factor does not
    move across a sum at an infinity, hence the three finiteness hypotheses.) -/
theorem sum_proj_comm {E K : Type*} [Fintype K] (S : Finset E) (a : E → K → EReal) (W : K → EReal) (n : E → EReal)
    (ha : ∀ e k, ∃ r : ℝ, a e k = (r : EReal)) (hW : ∀ k, ∃ r : ℝ, W k = (r : EReal))
    (hn : ∀ e, ∃ r : ℝ, n e = (r : EReal)) :
    ∑ e ∈ S, (∑ k, a e k * W k) * n e = ∑ k, (∑ e ∈ S, a e k * n e) * W k := by
  choose ra hra using ha
  choose rW hrW using hW
  choose rn hrn using hn
  have hl : ∀ e, (∑ k, a e k * W k) * n e = (((∑ k, ra e k * rW k) * rn e : ℝ) : EReal) := by
    intro e
    rw [EReal.coe_mul, coe_sum, hrn e]
    congr 1
    exact Finset.sum_congr rfl fun k _ => by rw [hra e k, hrW k, EReal.coe_mul]
  have hr : ∀ k, (∑ e ∈ S, a e k * n e) * W k = (((∑ e ∈ S, ra e k * rn e) * rW k : ℝ) : EReal) := by
    intro k
    rw [EReal.coe_mul, coe_sum, hrW k]
    congr 1
    exact Finset.sum_congr rfl fun e _ => by rw [hra e k, hrn e, EReal.coe_mul]
  rw [Finset.sum_congr rfl fun e _ => hl e, Finset.sum_congr rfl fun k _ => hr k, ← coe_sum, ← coe_sum]
  congr 1
  simp only [Finset.sum_mul]
  rw [Finset.sum_comm]
  exact Finset.sum_congr rfl fun k _ => Finset.sum_congr rfl fun e _ => by ring

end Algebra

end Cert.Lib.SegmentRows

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibConvLinear.lean ====
/-
  The projection crosses the segment sum.

  A graph convolution gathers rows of a feature table along the edges' source indices, weights each gathered row by
  its edge's scalar, and adds the weighted rows into the rows named by the edges' destination indices. Doing this to
  the PROJECTED table X·W is the same as doing it to X and projecting the result by W: both are, at row i and column j,
      ∑ over the edges e into i, ∑ over k, X (src e, k) · W (k, j) · n e,
  summed in the two orders. The data must be real-valued: on the extended reals a factor does not move across a sum
  at an infinity.
-/
import proofs.«171437_j34454227648547_2_alg».proof.Proof.LibSegmentRows
import proofs.«171437_j34454227648547_2_alg».proof.Proof.LibPlainDot

noncomputable section

open scoped BigOperators

namespace Cert.Lib.ConvLinear

open Idealize.ShloMosaic Idealize.ShloMosaic.ValueIdx Cert.Lib.SegmentRows Cert.Lib.PlainDot

/-- One weighted gather-and-scatter of a table T (N × C) read at (i, j) from a zero operand: the sum, over the
    edges e whose destination index is i, of T at (source row of e, j) times the edge's weight. -/
theorem propagate_apply {N E C w : Nat} {φ : FTy} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (T : FVec Ideal ⟨2, ![N, C]⟩ φ) (SI DI : IVec ⟨2, ![E, 1]⟩ w) (NB : FVec Ideal ⟨2, ![E, C]⟩ φ) (n : Fin E → EReal)
    (hNB : ∀ e c, NB (ix2 e c) = n e) (Z0 : FVec Ideal ⟨2, ![N, C]⟩ φ) (hZ0 : ∀ i, Z0 i = 0) (i : Fin N) (j : Fin C) :
    Ideal.hostScatterAdd (rowsS N E C wfS) Z0 DI (mulf (F := Ideal) (Host.gather (rowsG N E C wfG) T SI) NB) (ix2 i j)
      = ∑ e ∈ Finset.univ.filter (fun e : Fin E => (DI (ix2 e 0)).toInt = (i.val : ℤ)),
          T (ix2 (srcRow hN SI e) j) * n e := by
  rw [scatterAdd_rows_apply, hZ0, zero_add]
  refine Finset.sum_congr rfl fun e _ => ?_
  rw [mulf_apply, gather_rows_apply hN, hNB]

/-- THE PROJECTION CROSSES THE SEGMENT SUM: the weighted gather-and-scatter of the projected table X·W at (i, j) is
    the projection by W of the weighted gather-and-scatter of X. -/
theorem conv_linear {N E C w : Nat} {φ : FTy} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (X : FVec Ideal ⟨2, ![N, C]⟩ φ) (W : FVec Ideal ⟨2, ![C, C]⟩ φ) (SI DI : IVec ⟨2, ![E, 1]⟩ w)
    (NB : FVec Ideal ⟨2, ![E, C]⟩ φ) (n : Fin E → EReal) (hNB : ∀ e c, NB (ix2 e c) = n e)
    (Z0 : FVec Ideal ⟨2, ![N, C]⟩ φ) (hZ0 : ∀ i, Z0 i = 0)
    (hX : ∀ i, ∃ r : ℝ, X i = (r : EReal)) (hW : ∀ i, ∃ r : ℝ, W i = (r : EReal)) (hn : ∀ e, ∃ r : ℝ, n e = (r : EReal))
    (i : Fin N) (j : Fin C) :
    Ideal.hostScatterAdd (rowsS N E C wfS) Z0 DI
        (mulf (F := Ideal) (Host.gather (rowsG N E C wfG) (mm X W : FVec Ideal ⟨2, ![N, C]⟩ φ) SI) NB) (ix2 i j)
      = ∑ k : Fin C, Ideal.hostScatterAdd (rowsS N E C wfS) Z0 DI
          (mulf (F := Ideal) (Host.gather (rowsG N E C wfG) X SI) NB) (ix2 i k) * W (ix2 k j) := by
  have hR : ∑ k : Fin C, Ideal.hostScatterAdd (rowsS N E C wfS) Z0 DI
        (mulf (F := Ideal) (Host.gather (rowsG N E C wfG) X SI) NB) (ix2 i k) * W (ix2 k j)
      = ∑ k : Fin C, (∑ e ∈ Finset.univ.filter (fun e : Fin E => (DI (ix2 e 0)).toInt = (i.val : ℤ)),
          X (ix2 (srcRow hN SI e) k) * n e) * W (ix2 k j) :=
    Finset.sum_congr rfl fun k _ => by rw [propagate_apply hN wfS wfG X SI DI NB n hNB Z0 hZ0 i k]
  rw [hR, propagate_apply hN wfS wfG _ SI DI NB n hNB Z0 hZ0 i j]
  simp only [mm_apply]
  exact sum_proj_comm _ (fun e k => X (ix2 (srcRow hN SI e) k)) (fun k => W (ix2 k j)) n
    (fun e k => hX _) (fun k => hW _) hn

end Cert.Lib.ConvLinear

end
-- ==== Proof.LibBatchNorm.lean ====
/-
  General facts about sums of extended reals that take real values, and the one algebraic law the batch
  normalisation needs: the mean of the squared deviations from the mean is the mean of the squares minus the square of
  the mean. On the extended reals the law needs every summand to be a real number (at an infinity the difference of
  two infinities is the bottom element and the two sides part), so it is stated for a real family read into the
  extended reals, with the quotients taken by the extended reals' division by a nonzero real, which is the product
  with the reciprocal.
-/
import Idealize.ShloMosaic.PureOps.Ideal

noncomputable section

namespace Cert.Lib.BatchNorm

open Idealize.ShloMosaic Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real number is the real sum. -/
theorem sum_eq_coe {ι : Type*} (s : Finset ι) (x : ι → EReal) (f : ι → ℝ) (hx : ∀ i ∈ s, x i = (f i : EReal)) :
    ∑ i ∈ s, x i = ((∑ i ∈ s, f i : ℝ) : EReal) := by
  rw [coe_sum]; exact Finset.sum_congr rfl hx

/-- The quotient of a real by a nonzero real, on the extended reals, is the real quotient. -/
theorem div_coe_coe (a : ℝ) {n : ℝ} (hn : n ≠ 0) : Ideal.div (a : EReal) (n : EReal) = ((a / n : ℝ) : EReal) := by
  rw [Ideal.div_coe hn, ← EReal.coe_mul]; congr 1; field_simp

/-- Over the reals: the mean squared deviation from the mean is the mean square minus the squared mean
    (n the number of summands). -/
theorem real_var {ι : Type*} [Fintype ι] (h : ι → ℝ) (n : ℝ) (hn : n ≠ 0) (hcard : (Fintype.card ι : ℝ) = n) :
    (∑ i, (h i - (∑ i, h i) / n) * (h i - (∑ i, h i) / n)) / n
      = (∑ i, h i * h i) / n - ((∑ i, h i) / n) * ((∑ i, h i) / n) := by
  have e : ∑ i, (h i - (∑ i, h i) / n) * (h i - (∑ i, h i) / n)
      = (∑ i, h i * h i) - 2 * ((∑ i, h i) / n) * (∑ i, h i) + n * (((∑ i, h i) / n) * ((∑ i, h i) / n)) := by
    have : ∀ i, (h i - (∑ i, h i) / n) * (h i - (∑ i, h i) / n)
        = h i * h i - 2 * ((∑ i, h i) / n) * h i + ((∑ i, h i) / n) * ((∑ i, h i) / n) := fun i => by ring
    simp only [this, Finset.sum_add_distrib, Finset.sum_sub_distrib, ← Finset.mul_sum, Finset.sum_const, Finset.card_univ,
      nsmul_eq_mul, hcard]
    ring
  rw [e]; field_simp; ring

/-- The law on the extended reals, for a real-valued family: with m the quotient of the sum by n,
    the quotient by n of the sum of the squares of (h - m) is the quotient by n of the sum of squares, minus m squared. -/
theorem ereal_var {ι : Type*} [Fintype ι] (h : ι → ℝ) (n : ℝ) (hn : n ≠ 0) (hcard : (Fintype.card ι : ℝ) = n) :
    Ideal.div (∑ i, ((h i : EReal) - Ideal.div (∑ i, (h i : EReal)) (n : EReal))
        * ((h i : EReal) - Ideal.div (∑ i, (h i : EReal)) (n : EReal))) (n : EReal)
      = Ideal.div (∑ i, (h i : EReal) * (h i : EReal)) (n : EReal)
        - Ideal.div (∑ i, (h i : EReal)) (n : EReal) * Ideal.div (∑ i, (h i : EReal)) (n : EReal) := by
  have hS : ∑ i, (h i : EReal) = ((∑ i, h i : ℝ) : EReal) := (coe_sum _ _).symm
  have hQ : ∑ i, (h i : EReal) * (h i : EReal) = ((∑ i, h i * h i : ℝ) : EReal) := by
    rw [coe_sum]; exact Finset.sum_congr rfl fun i _ => (EReal.coe_mul _ _).symm
  rw [hS, hQ, div_coe_coe _ hn, div_coe_coe _ hn]
  have hD : ∑ i, ((h i : EReal) - (((∑ i, h i) / n : ℝ) : EReal)) * ((h i : EReal) - (((∑ i, h i) / n : ℝ) : EReal))
      = ((∑ i, (h i - (∑ i, h i) / n) * (h i - (∑ i, h i) / n) : ℝ) : EReal) := by
    rw [coe_sum]; exact Finset.sum_congr rfl fun i _ => by rw [← EReal.coe_sub, ← EReal.coe_mul]
  rw [hD, div_coe_coe _ hn, ← EReal.coe_mul, ← EReal.coe_sub, real_var h n hn hcard]

end Cert.Lib.BatchNorm

end
-- ==== Proof.LibGcn.lean ====
/-
  General lemmas for a symmetric-normalised graph aggregation read on the extended reals.

  * A signed 32-bit node index that is not negative is left alone by the "wrap a negative index once" idiom
    (select (index < 0) (index + n) index), and clamping it into [0, N − 1] changes nothing when it is below N.
  * For real-valued data, a factor that is the same for every summand of a finite sum comes out of the sum
    (on the extended reals this needs every term to be a real number: at an infinity a product does not
    distribute over a sum).
  * Real-valuedness of a plain dot product, of a power with real base and exponent, and of a sum of ones.
-/
import Mathlib
import Idealize.ShloMosaic.PureOps.Ideal
import Idealize.ShloMosaic.PureOps.Ideal.Laws
import Idealize.ShloMosaic.Lib.ValueIdx
import proofs.«171437_j34454227648547_2_alg».proof.Proof.LibReal
import proofs.«171437_j34454227648547_2_alg».proof.Proof.LibBatchNorm

noncomputable section

open scoped BigOperators

namespace Cert.Lib.Gcn

open Idealize.ShloMosaic Idealize.ShloMosaic.ValueIdx
open Cert.Lib.Real (IsReal)
open Cert.Lib.BatchNorm (coe_sum)

/-! ## Signed indices -/

/-- A word that is not negative as a signed integer is not "signed-less-than zero". -/
theorem cmpi_slt_zero_of_nonneg (v : BitVec 32) (h : 0 ≤ v.toInt) : IntOp.cmpi .slt v 0#32 = 0#1 := by
  unfold IntOp.cmpi
  have : v.slt 0#32 = false := by
    rw [BitVec.slt_eq_decide]
    simpa using h
  simp [this]

/-- The wrap-once idiom leaves a non-negative index alone. -/
theorem wrap_of_nonneg (v k : BitVec 32) (h : 0 ≤ v.toInt) :
    Scalar.select (IntOp.cmpi .slt v 0#32) (IntOp.addi v k) v = v := by
  rw [cmpi_slt_zero_of_nonneg v h]
  exact select_zero _ _

/-- Clamping the natural number of a signed index that equals c < N into [0, N − 1] gives c. -/
theorem clamp_of_eq {N : ℕ} (v : BitVec 32) (c : Fin N) (h : v.toInt = (c.val : ℤ)) :
    min v.toInt.toNat (N - 1) = c.val := by
  have := c.isLt
  rw [h]; simp; omega

/-- The signed value of the word of a natural number below 2^31 is that number. -/
theorem toInt_ofNat_of_lt (n : ℕ) (h : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-! ## Real-valued extended reals -/

/-- A power with real base and real exponent is a real number (the real power function is total). -/
theorem IsReal.pow {x y : EReal} (hx : IsReal x) (hy : IsReal y) : IsReal (Ideal.pow x y) := by
  obtain ⟨a, rfl⟩ := hx; obtain ⟨b, rfl⟩ := hy
  exact ⟨Real.rpow a b, Ideal.pow_coe_coe a b⟩

/-! ## The destination's factor comes out of a segment sum -/

/-- For real-valued terms: if the second weight is the same real number D on the whole range of the sum, then
    Σ a e · (n e · d e) = (Σ a e · n e) · D. -/
theorem sum_pull_factor {E : Type*} (S : Finset E) (a n d : E → EReal) (D : EReal)
    (ha : ∀ e, IsReal (a e)) (hn : ∀ e, IsReal (n e)) (hD : IsReal D) (hd : ∀ e ∈ S, d e = D) :
    ∑ e ∈ S, a e * (n e * d e) = (∑ e ∈ S, a e * n e) * D := by
  obtain ⟨rD, rfl⟩ := hD
  have ha' : ∀ e, ∃ r : ℝ, a e = (r : EReal) := ha
  have hn' : ∀ e, ∃ r : ℝ, n e = (r : EReal) := hn
  choose ra hra using ha'
  choose rn hrn using hn'
  have hl : ∑ e ∈ S, a e * (n e * d e) = ((∑ e ∈ S, ra e * (rn e * rD) : ℝ) : EReal) := by
    rw [coe_sum]
    exact Finset.sum_congr rfl fun e he => by
      rw [hd e he, hra e, hrn e, ← EReal.coe_mul, ← EReal.coe_mul]
  have hr : ∑ e ∈ S, a e * n e = ((∑ e ∈ S, ra e * rn e : ℝ) : EReal) := by
    rw [coe_sum]
    exact Finset.sum_congr rfl fun e _ => by rw [hra e, hrn e, ← EReal.coe_mul]
  rw [hl, hr, ← EReal.coe_mul, Finset.sum_mul]
  congr 1
  exact Finset.sum_congr rfl fun e _ => by ring

end Cert.Lib.Gcn

end
-- ==== Proof.LibHostSeg.lean ====
/-
  The host's accumulating scatter at the ideal instance, read at an index, in the two forms a row-wise segment sum
  uses (entries of a vector, rows of a matrix): the operand's element plus the sum of the updates whose scatter index,
  read signed, names that element. These are the general segment-sum reading lemmas stated for the host operation
  itself rather than for the ideal instance's function it denotes.
-/
import proofs.«171437_j34454227648547_2_alg».proof.Proof.LibSegmentRows

noncomputable section

open scoped BigOperators

namespace Cert.Lib.HostSeg

open Idealize.ShloMosaic Idealize.ShloMosaic.ValueIdx
open Cert.Lib.SegmentRows (rowsS entriesS scatterAdd_rows_apply scatterAdd_entries_apply)

/-- The host's entry scatter-add at entry i. -/
theorem host_scatterAdd_entries_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : Fin N) :
    Host.scatterAdd (F := Ideal) (φ := φ) (entriesS N E wf) x idx upd (ix1 i)
      = x (ix1 i) + ∑ e ∈ Finset.univ.filter (fun e : Fin E => (idx (ix2 e 0)).toInt = (i.val : ℤ)), upd (ix1 e) :=
  scatterAdd_entries_apply wf x idx upd i

/-- The host's row scatter-add at (i, j). -/
theorem host_scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (i : Fin N) (j : Fin C) :
    Host.scatterAdd (F := Ideal) (φ := φ) (rowsS N E C wf) x idx upd (ix2 i j)
      = x (ix2 i j) + ∑ e ∈ Finset.univ.filter (fun e : Fin E => (idx (ix2 e 0)).toInt = (i.val : ℤ)), upd (ix2 e j) :=
  scatterAdd_rows_apply wf x idx upd i j

/-- The host's power at an index is the extended reals' power of the entries. -/
theorem host_powf_apply {s : Shape} {φ : FTy} (x y : FVec Ideal s φ) (i : s.Idx) :
    Host.powf (F := Ideal) x y i = Ideal.pow (x i) (y i) := rfl

/-- The host's quotient at an index is the extended reals' quotient of the entries. -/
theorem host_divf_apply {s : Shape} {φ : FTy} (x y : FVec Ideal s φ) (i : s.Idx) :
    Host.divf (F := Ideal) x y i = Ideal.div (x i) (y i) := rfl

end Cert.Lib.HostSeg

end
-- ==== Proof.LibScatterTally.lean ====
/-
  A host scatter with an arbitrary combining function, read at one index.

  The scatter visits the updates in a fixed (row-major) order and, for each one that lands inside the operand,
  replaces the element it lands on by the combination of that element with the update.  Read at a single index i this
  is a fold, in the same order, that combines exactly the updates landing on i and skips all the others: a "tally" of
  the updates that hit i.  Which updates hit i is all that matters: two tallies over the same updates whose hit
  conditions are equivalent are equal, whatever the lengths of the two operands the scatters write into.  For a
  scatter of single entries an update hits entry i exactly when its scatter index, read signed, is i.
-/
import Idealize.ShloMosaic.PureOps.ShapeOps
import Idealize.ShloMosaic.Lib.ValueIdx
import proofs.«171437_j34454227648547_2_alg».proof.Proof.LibSegmentRows

noncomputable section

namespace Cert.Lib.ScatterTally

open Idealize.ShloMosaic Idealize.ShloMosaic.ValueIdx
open Cert.Lib.SegmentRows (entriesS entriesS_resultIdx_iff pos1 eq_ix1_pos)

variable {α : Type}

/-- Combine with f, in row-major order of the update indices, the updates at the indices q that hit; skip the rest. -/
def tally {u : Shape} (hit : u.Idx → Prop) [DecidablePred hit] (f : α → α → α) (upd : u.Idx → α) (x0 : α) : α :=
  (List.finRange u.numel).foldl
    (fun acc n => if hit (u.rowMajor.symm n) then f acc (upd (u.rowMajor.symm n)) else acc) x0

/-- Tallies over equivalent hit conditions are equal. -/
theorem tally_congr {u : Shape} (hit hit' : u.Idx → Prop) [DecidablePred hit] [DecidablePred hit'] (f : α → α → α)
    (upd : u.Idx → α) (x0 : α) (h : ∀ q, hit q ↔ hit' q) : tally hit f upd x0 = tally hit' f upd x0 := by
  unfold tally
  have e : (fun (acc : α) (n : Fin u.numel) => if hit (u.rowMajor.symm n) then f acc (upd (u.rowMajor.symm n)) else acc)
      = (fun acc n => if hit' (u.rowMajor.symm n) then f acc (upd (u.rowMajor.symm n)) else acc) := by
    funext acc n
    exact if_congr (h _) rfl rfl
  rw [e]

/-- THE SCATTER AT AN INDEX: the tally, started from the operand's element at i, of the updates landing on i. -/
theorem scatter_apply {s si u : Shape} {w : Nat} (d : ScatterDims s si u) (f : α → α → α) (x : s.Idx → α)
    (idx : IVec si w) (upd : u.Idx → α) (i : s.Idx) :
    Host.scatter d f x idx upd i = tally (fun q => d.resultIdx? q idx = some i) f upd (x i) := by
  unfold Host.scatter tally
  generalize List.finRange u.numel = l
  induction l generalizing x with
  | nil => rfl
  | cons n l ih =>
    rw [List.foldl_cons, List.foldl_cons, ih]
    congr 1
    beta_reduce
    generalize d.resultIdx? (u.rowMajor.symm n) idx = o
    cases o with
    | none => simp
    | some i' =>
      by_cases hi : i' = i
      · subst hi; simp
      · have hne : ¬ (some i' = some i) := fun h => hi (Option.some.inj h)
        have hne' : ¬ (i = i') := fun h => hi h.symm
        simp [hne, hne']

/-- THE ENTRY SCATTER AT ENTRY i: the tally of the updates whose scatter index, read signed, is i. -/
theorem scatter_entries_apply {N E w : Nat} (wf : ScatterDims.WF ⟨1, ![N]⟩ ⟨2, ![E, 1]⟩ ⟨1, ![E]⟩ [] [0] [0] 1)
    (f : α → α → α) (x : (⟨1, ![N]⟩ : Shape).Idx → α) (idx : IVec ⟨2, ![E, 1]⟩ w)
    (upd : (⟨1, ![E]⟩ : Shape).Idx → α) (i : Fin N) :
    Host.scatter (entriesS N E wf) f x idx upd (ix1 i)
      = tally (fun q : (⟨1, ![E]⟩ : Shape).Idx => (idx (ix2 (pos1 q) 0)).toInt = (i.val : ℤ)) f upd (x (ix1 i)) := by
  rw [scatter_apply]
  refine tally_congr _ _ f upd _ fun q => ?_
  have := entriesS_resultIdx_iff wf idx (pos1 q) i
  rw [← eq_ix1_pos q] at this
  exact this

end Cert.Lib.ScatterTally

end
-- ==== Proof.HyperSpec.lean ====
/-
  The weighted hypergraph aggregation, as the host operations spell it, and what it is index by index.

  Inputs: node features x (50000 × 128), an incidence list h (2 × 640000 signed integers: row 0 the "source" node of
  each incidence, row 1 its "destination" node), incidence weights w (640000) and a projection W (128 × 128).
  A node's degree is the number of incidences naming it (a histogram of the indices, built by an integer scatter of
  ones); each incidence e gets the scalar
      v e = (source degree at src e) ^ (−1/2) · 1 / (destination degree at dst e + ε) · w e,
  and the result at node i is the sum, over the incidences e whose source is i, of v e times the destination's row —
  projected by W either before the sum (the reference) or after it (the kernel).

  The destination histogram is built with M bins, M = 50000 in one program and 640000 in the other, and read back
  at dst e after the usual "wrap a negative index once by adding M" step.  For 0 ≤ dst e < 50000 both programs read
  the same tally of the same incidences, so the two scalars v e coincide; they are real numbers (a real power of a
  real, the reciprocal of an integer plus an ε strictly between 0 and 1, a finite weight), and for real data the
  projection crosses the sum.
-/
import proofs.«171437_j34454227648547_2_alg».proof.Proof.LibSegmentRows
import proofs.«171437_j34454227648547_2_alg».proof.Proof.LibConvLinear
import proofs.«171437_j34454227648547_2_alg».proof.Proof.LibPlainDot
import proofs.«171437_j34454227648547_2_alg».proof.Proof.LibReal
import proofs.«171437_j34454227648547_2_alg».proof.Proof.LibGcn
import proofs.«171437_j34454227648547_2_alg».proof.Proof.LibHostSeg
import proofs.«171437_j34454227648547_2_alg».proof.Proof.LibScatterTally

noncomputable section

open scoped BigOperators

namespace Cert.Hyper

open Idealize.ShloMosaic Idealize.ShloMosaic.ValueIdx
open Cert.Lib.SegmentRows (rowsG rowsS entriesG entriesS srcRow pos1 gather_entries_apply gather_rows_apply)
open Cert.Lib.PlainDot (mm mm_apply)
open Cert.Lib.Real (IsReal)
open Cert.Lib.ScatterTally (tally tally_congr scatter_entries_apply)

/-! ## Shapes and the shape facts the operations take -/

abbrev SX : Shape := ⟨2, ![50000, 128]⟩
abbrev SI : Shape := ⟨2, ![2, 640000]⟩
abbrev SE : Shape := ⟨1, ![640000]⟩
abbrev SW : Shape := ⟨2, ![128, 128]⟩
abbrev S1E : Shape := ⟨2, ![1, 640000]⟩
abbrev S0 : Shape := ⟨0, ![]⟩
abbrev SN : Shape := ⟨1, ![50000]⟩
abbrev SE1 : Shape := ⟨2, ![640000, 1]⟩
abbrev SEC : Shape := ⟨2, ![640000, 128]⟩
/-- The destination histogram's shape: M bins. -/
abbrev SM (M : Nat) : Shape := ⟨1, ![M]⟩

/-- The shape relations the host operations below ask for, apart from the destination histogram's. -/
structure BaseFacts : Prop where
  sl0 : SI.Slices ![0, 0] S1E
  sl1 : SI.Slices ![1, 0] S1E
  sc : S1E.ShapeCasts SE
  b0N : S0.BroadcastsInDim SN (![] : Fin 0 → Fin SN.rank)
  b0E : S0.BroadcastsInDim SE (![] : Fin 0 → Fin SE.rank)
  bE1 : SE.BroadcastsInDim SE1 (![0] : Fin 1 → Fin SE1.rank)
  bEC : SE1.BroadcastsInDim SEC (![0, 1] : Fin 2 → Fin SEC.rank)
  b0X : S0.BroadcastsInDim SX (![] : Fin 0 → Fin SX.rank)
  wSN : ScatterDims.WF SN SE1 SE [] [0] [0] 1
  wGN : GatherDims.WF SN SE1 SE [] [0] [] [0] [] 1 ![1]
  wGX : GatherDims.WF SX SE1 SEC [1] [0] [] [0] [] 1 ![1, 128]
  wSX : ScatterDims.WF SX SE1 SEC [1] [0] [0] 1

/-- The shape relations of a destination histogram with M bins. -/
structure BinFacts (M : Nat) : Prop where
  b0M : S0.BroadcastsInDim (SM M) (![] : Fin 0 → Fin (SM M).rank)
  wSM : ScatterDims.WF (SM M) SE1 SE [] [0] [0] 1
  wGM : GatherDims.WF (SM M) SE1 SE [] [0] [] [0] [] 1 ![1]

variable (h : BaseFacts) {M : Nat} (g : BinFacts M)

/-! ## The host operations, stage by stage -/

/-- Row 0 of the incidence list: the source nodes. -/
def srcv (x1 : IVec SI 32) : IVec SE 32 := shapeCast SE (extractStridedSlice S1E ![0, 0] x1 h.sl0) h.sc
/-- Row 1 of the incidence list: the destination nodes. -/
def dstv (x1 : IVec SI 32) : IVec SE 32 := shapeCast SE (extractStridedSlice S1E ![1, 0] x1 h.sl1) h.sc
/-- An integer array filled with one word. -/
def fillI {s : Shape} (hb : S0.BroadcastsInDim s (![] : Fin 0 → Fin s.rank)) (k : BitVec 32) : IVec s 32 :=
  broadcastInDim s ![] hb (constantI S0 32 k)
/-- A float array filled with one f32 pattern. -/
def fillF {s : Shape} (hb : S0.BroadcastsInDim s (![] : Fin 0 → Fin s.rank)) (k : BitVec 32) : FVec Ideal s .f32 :=
  broadcastInDim s ![] hb (constant (F := Ideal) S0 .f32 k)
/-- Clip below at 0 (signed). -/
def clip (v : IVec SE 32) : IVec SE 32 := maxsi (broadcastInDim SE ![] h.b0E (id (constantI S0 32 0#32))) v
/-- Wrap a negative index once: add k where the index is below 0. -/
def wrap (k : BitVec 32) (v : IVec SE 32) : IVec SE 32 :=
  select (cmpi .slt v (fillI h.b0E 0#32)) (addi v (fillI h.b0E k)) v
/-- A vector over the incidences as a one-column matrix. -/
def col {α : Type} (v : SE.Idx → α) : SE1.Idx → α := broadcastInDim SE1 ![0] h.bE1 v
/-- The source histogram (50000 bins): scatter a one at every clipped, wrapped source index. -/
def histN (v : IVec SE 32) : IVec SN 32 :=
  Host.scatter (entriesS 50000 640000 h.wSN) IntOp.addi (fillI h.b0N 0#32) (col h (wrap h 50000#32 (clip h v)))
    (fillI h.b0E 1#32)
/-- The destination histogram (M bins). -/
def histM (v : IVec SE 32) : IVec (SM M) 32 :=
  Host.scatter (entriesS M 640000 g.wSM) IntOp.addi (fillI g.b0M 0#32)
    (col h (wrap h (BitVec.ofNat 32 M) (clip h v))) (fillI h.b0E 1#32)
/-- Per node: (source degree) ^ (−1/2). -/
def nodeFac (x1 : IVec SI 32) : FVec Ideal SN .f32 :=
  Host.powf (F := Ideal) (sitofp (F := Ideal) .f32 (histN h (srcv h x1))) (fillF h.b0N 0xBF000000#32)
/-- Per bin: 1 / (destination degree + ε). -/
def edgeFac (x1 : IVec SI 32) : FVec Ideal (SM M) .f32 :=
  Host.divf (F := Ideal) (fillF g.b0M 0x3F800000#32)
    (addf (F := Ideal) (sitofp (F := Ideal) .f32 (histM h g (dstv h x1))) (fillF g.b0M 0x3727C5AC#32))
/-- Per incidence: the scalar v e. -/
def vals (x1 : IVec SI 32) (x2 : FVec Ideal SE .f32) : FVec Ideal SE .f32 :=
  mulf (F := Ideal)
    (mulf (F := Ideal)
      (Host.gather (entriesG 50000 640000 h.wGN) (nodeFac h x1) (col h (wrap h 50000#32 (srcv h x1))))
      (Host.gather (entriesG M 640000 g.wGM) (edgeFac h g x1) (col h (wrap h (BitVec.ofNat 32 M) (dstv h x1)))))
    x2
/-- The scalars spread along the 128 columns. -/
def spread (x1 : IVec SI 32) (x2 : FVec Ideal SE .f32) : FVec Ideal SEC .f32 :=
  broadcastInDim SEC ![0, 1] h.bEC (col h (vals h g x1 x2))
/-- Aggregate first: the weighted destination rows of x summed per source node (no projection yet). -/
def agg (x0 : FVec Ideal SX .f32) (x1 : IVec SI 32) (x2 : FVec Ideal SE .f32) : FVec Ideal SX .f32 :=
  Host.scatterAdd (F := Ideal) (φ := .f32) (rowsS 50000 640000 128 h.wSX) (fillF h.b0X 0x00000000#32) (col h (srcv h x1))
    (mulf (F := Ideal) (Host.gather (rowsG 50000 640000 128 h.wGX) x0 (col h (wrap h 50000#32 (dstv h x1))))
      (spread h g x1 x2))
/-- Project first: the weighted destination rows of x·W summed per source node. -/
def projAgg (x0 : FVec Ideal SX .f32) (x1 : IVec SI 32) (x2 : FVec Ideal SE .f32) (x3 : FVec Ideal SW .f32) :
    FVec Ideal SX .f32 :=
  Host.scatterAdd (F := Ideal) (φ := .f32) (rowsS 50000 640000 128 h.wSX) (fillF h.b0X 0x00000000#32) (col h (srcv h x1))
    (mulf (F := Ideal)
      (Host.gather (rowsG 50000 640000 128 h.wGX)
        (Host.dotGeneral (F := Ideal) (DotDims.plain 50000 128 128) none x0 x3 : FVec Ideal SX .f32)
        (col h (wrap h 50000#32 (dstv h x1))))
      (spread h g x1 x2))

end Cert.Hyper

end
-- ==== Proof.HyperConsts.lean ====
/-
  The three float constants of the normalisation, as the extended reals their f32 patterns denote: the exponent −1/2,
  the numerator 1, and the ε added to the destination degree, which lies strictly between 0 and 1 — so an integer plus
  ε is never zero.
-/
import Idealize.ShloMosaic.PureOps.Ideal

noncomputable section

namespace Cert.Hyper.Consts

open Idealize.ShloMosaic

/-- The pattern of −0.5 denotes −1/2. -/
theorem ofBits_neg_half : Ideal.ofBits .f32 0xBF000000#32 = ((-(1 / 2) : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The real number the pattern of ε (the f32 nearest 1e-5) denotes. -/
def eps : ℝ := 10995116 / 1099511627776

/-- The pattern of ε denotes eps. -/
theorem ofBits_eps : Ideal.ofBits .f32 0x3727C5AC#32 = ((eps : ℝ) : EReal) := by
  unfold eps
  simp [Ideal.ofBits, Ideal.ieee, -EReal.coe_mul]; norm_num

theorem eps_pos : 0 < eps := by unfold eps; norm_num
theorem eps_lt_one : eps < 1 := by unfold eps; norm_num

/-- An integer plus ε is not zero. -/
theorem int_add_eps_ne_zero (n : ℤ) : (n : ℝ) + eps ≠ 0 := by
  have h0 := eps_pos
  have h1 := eps_lt_one
  intro h
  rcases le_or_gt 0 n with hn | hn
  · have : (0 : ℝ) ≤ (n : ℝ) := by exact_mod_cast hn
    linarith
  · have : (n : ℝ) ≤ -1 := by exact_mod_cast (by omega : n ≤ -1)
    linarith

end Cert.Hyper.Consts

end
-- ==== Proof.HyperRead.lean ====
/-
  The stages of the hypergraph aggregation read index by index.

  * Layout stages (a row of the incidence list, a filled array, a vector as a column, a scalar spread along a row)
    read at an index; the integer stages (clip at 0, wrap a negative index once) leave a non-negative index alone.
  * The destination histogram with M bins, read at a bin, is the tally of the incidences whose destination is that
    bin — whatever M is.
  * The two normalising factors are real numbers: a real power of a real, and the reciprocal of (integer + ε) with
    0 < ε < 1.
-/
import proofs.«171437_j34454227648547_2_alg».proof.Proof.HyperSpec
import proofs.«171437_j34454227648547_2_alg».proof.Proof.HyperConsts

noncomputable section

open scoped BigOperators

namespace Cert.Hyper

open Idealize.ShloMosaic Idealize.ShloMosaic.ValueIdx
open Cert.Lib.SegmentRows (rowsG rowsS entriesG entriesS srcRow pos1 eq_ix1_pos gather_entries_apply gather_rows_apply)
open Cert.Lib.PlainDot (mm mm_apply)
open Cert.Lib.Real (IsReal)
open Cert.Lib.ScatterTally (tally tally_congr scatter_entries_apply)

variable (h : BaseFacts) {M : Nat} (g : BinFacts M)

/-! ## Layout stages at an index -/

theorem fillI_apply {s : Shape} (hb : S0.BroadcastsInDim s (![] : Fin 0 → Fin s.rank)) (k : BitVec 32) (i : s.Idx) :
    fillI hb k i = k := by
  unfold fillI
  rw [broadcastInDim_apply _ hb _ i ix0 (fun a => a.elim0)]
  rfl

theorem fillF_apply {s : Shape} (hb : S0.BroadcastsInDim s (![] : Fin 0 → Fin s.rank)) (k : BitVec 32) (i : s.Idx) :
    fillF hb k i = Ideal.ofBits .f32 k := by
  unfold fillF
  rw [broadcastInDim_apply _ hb _ i ix0 (fun a => a.elim0)]
  rfl

/-- Row 0 of the incidence list at e. -/
theorem srcv_apply (x1 : IVec SI 32) (e : Fin 640000) : srcv h x1 (ix1 e) = x1 (ix2 (0 : Fin 2) e) := by
  unfold srcv
  rw [shapeCast_apply _ h.sc (ix1 e) (ix2 (0 : Fin 1) e)
    (by rw [Shape.rowMajor_val_two, Shape.rowMajor_val_one]; show 0 * 640000 + e.val = e.val; omega)]
  exact extractStridedSlice_apply ![0, 0] x1 h.sl0 (ix2 (0 : Fin 1) e) (ix2 (0 : Fin 2) e) (fun a => match a with
    | ⟨0, _⟩ => by show (0 : ℕ) = 0 + 0; rfl
    | ⟨1, _⟩ => by show e.val = 0 + e.val; omega)

/-- Row 1 of the incidence list at e. -/
theorem dstv_apply (x1 : IVec SI 32) (e : Fin 640000) : dstv h x1 (ix1 e) = x1 (ix2 (1 : Fin 2) e) := by
  unfold dstv
  rw [shapeCast_apply _ h.sc (ix1 e) (ix2 (0 : Fin 1) e)
    (by rw [Shape.rowMajor_val_two, Shape.rowMajor_val_one]; show 0 * 640000 + e.val = e.val; omega)]
  exact extractStridedSlice_apply ![1, 0] x1 h.sl1 (ix2 (0 : Fin 1) e) (ix2 (1 : Fin 2) e) (fun a => match a with
    | ⟨0, _⟩ => by show (1 : ℕ) = 1 + 0; rfl
    | ⟨1, _⟩ => by show e.val = 0 + e.val; omega)

/-- A vector as a column, at (e, 0). -/
theorem col_apply {α : Type} (v : SE.Idx → α) (e : Fin 640000) : col h v (ix2 e (0 : Fin 1)) = v (ix1 e) := by
  unfold col
  exact broadcastInDim_apply _ h.bE1 v (ix2 e (0 : Fin 1)) (ix1 e) (fun a => match a with
    | ⟨0, _⟩ => by show e.val = if (640000 : Nat) = 1 then 0 else e.val; rw [if_neg (by decide)])

/-- The spread scalars at (e, c): the scalar of incidence e. -/
theorem spread_apply (x1 : IVec SI 32) (x2 : FVec Ideal SE .f32) (e : Fin 640000) (c : Fin 128) :
    spread h g x1 x2 (ix2 e c) = vals h g x1 x2 (ix1 e) := by
  unfold spread
  rw [broadcastInDim_apply _ h.bEC _ (ix2 e c) (ix2 e (0 : Fin 1)) (fun a => match a with
    | ⟨0, _⟩ => by show e.val = if (640000 : Nat) = 1 then 0 else e.val; rw [if_neg (by decide)]
    | ⟨1, _⟩ => by show 0 = if (1 : Nat) = 1 then 0 else c.val; rw [if_pos rfl])]
  exact col_apply h _ e

/-! ## Integer stages -/

theorem clip_apply (v : IVec SE 32) (i : SE.Idx) : clip h v i = IntOp.maxsi 0#32 (v i) := by
  unfold clip
  show IntOp.maxsi (broadcastInDim SE ![] h.b0E (id (constantI S0 32 0#32)) i) (v i) = _
  rw [broadcastInDim_apply _ h.b0E _ i ix0 (fun a => a.elim0)]
  rfl

theorem wrap_apply (k : BitVec 32) (v : IVec SE 32) (i : SE.Idx) :
    wrap h k v i = Scalar.select (IntOp.cmpi .slt (v i) 0#32) (IntOp.addi (v i) k) (v i) := by
  unfold wrap
  show Scalar.select (IntOp.cmpi .slt (v i) (fillI h.b0E 0#32 i)) (IntOp.addi (v i) (fillI h.b0E k i)) (v i) = _
  rw [fillI_apply, fillI_apply]

/-- Clipping below at 0 leaves a non-negative word alone. -/
theorem maxsi_zero_of_nonneg (x : BitVec 32) (hx : 0 ≤ x.toInt) : IntOp.maxsi 0#32 x = x := by
  unfold IntOp.maxsi
  have hs : x.slt 0#32 = false := by
    rw [BitVec.slt_eq_decide]
    simpa using hx
  simp [hs]

/-- A non-negative index survives clip, wrap and the column cast. -/
theorem colWrapClip_apply (k : BitVec 32) (v : IVec SE 32) (e : Fin 640000) (hv : 0 ≤ (v (ix1 e)).toInt) :
    col h (wrap h k (clip h v)) (ix2 e (0 : Fin 1)) = v (ix1 e) := by
  rw [col_apply, wrap_apply, clip_apply, maxsi_zero_of_nonneg _ hv]
  exact Cert.Lib.Gcn.wrap_of_nonneg _ k hv

/-- A non-negative index survives wrap and the column cast. -/
theorem colWrap_apply (k : BitVec 32) (v : IVec SE 32) (e : Fin 640000) (hv : 0 ≤ (v (ix1 e)).toInt) :
    col h (wrap h k v) (ix2 e (0 : Fin 1)) = v (ix1 e) := by
  rw [col_apply, wrap_apply]
  exact Cert.Lib.Gcn.wrap_of_nonneg _ k hv

/-! ## The destination histogram -/

/-- The degree of node i along an index row v: the tally of ones over the incidences e with v e = i, as the 32-bit
    word the integer scatter leaves. -/
def degree (v : IVec SE 32) (i : ℤ) : BitVec 32 :=
  tally (fun q : SE.Idx => (v q).toInt = i) IntOp.addi (fillI h.b0E 1#32) 0#32

/-- The M-bin histogram of a non-negative index row, at bin i, is the degree of i — whatever M is. -/
theorem histM_apply (v : IVec SE 32) (hv : ∀ e : Fin 640000, 0 ≤ (v (ix1 e)).toInt) (i : Fin M) :
    histM h g v (ix1 i) = degree h v (i.val : ℤ) := by
  unfold histM degree
  rw [scatter_entries_apply, fillI_apply]
  refine tally_congr _ _ _ _ _ fun q => ?_
  rw [colWrapClip_apply h _ v (pos1 q) (hv _), ← eq_ix1_pos q]

/-- 1 / (degree + ε) at bin i. -/
theorem edgeFac_apply (x1 : IVec SI 32) (hv : ∀ e : Fin 640000, 0 ≤ (dstv h x1 (ix1 e)).toInt) (i : Fin M) :
    edgeFac h g x1 (ix1 i)
      = Ideal.div ((1 : ℝ) : EReal)
          ((((degree h (dstv h x1) (i.val : ℤ)).toInt : ℝ) : EReal) + ((Consts.eps : ℝ) : EReal)) := by
  unfold edgeFac
  rw [Cert.Lib.HostSeg.host_divf_apply, fillF_apply, Consts.ofBits_one, addf_apply, fillF_apply, Consts.ofBits_eps,
    sitofp_apply, histM_apply h g _ hv]
  rfl

/-- 1 / (degree + ε) is a real number. -/
theorem edgeFac_isReal (n : ℤ) :
    IsReal (Ideal.div ((1 : ℝ) : EReal) (((n : ℝ) : EReal) + ((Consts.eps : ℝ) : EReal))) := by
  rw [← EReal.coe_add]
  exact (Cert.Lib.Real.isReal_coe 1).div_coe (Consts.int_add_eps_ne_zero n)

/-- (source degree) ^ (−1/2) is a real number at every node. -/
theorem nodeFac_isReal (x1 : IVec SI 32) (i : SN.Idx) : IsReal (nodeFac h x1 i) := by
  unfold nodeFac
  rw [Cert.Lib.HostSeg.host_powf_apply, fillF_apply, Consts.ofBits_neg_half, sitofp_apply]
  exact Cert.Lib.Gcn.IsReal.pow ⟨_, rfl⟩ ⟨_, rfl⟩

end Cert.Hyper

end
-- ==== Proof.HyperScalar.lean ====
/-
  The per-incidence scalar v e = (source degree) ^ (−1/2) · 1 / (destination degree + ε) · w e, read with the
  destination factor as the degree of dst e: it does not depend on the number M of bins of the destination histogram
  when 0 ≤ dst e < 50000 ≤ M, and it is a real number for a finite weight.
-/
import proofs.«171437_j34454227648547_2_alg».proof.Proof.HyperRead

noncomputable section

open scoped BigOperators

namespace Cert.Hyper

open Idealize.ShloMosaic Idealize.ShloMosaic.ValueIdx
open Cert.Lib.SegmentRows (rowsG rowsS entriesG entriesS srcRow pos1 eq_ix1_pos gather_entries_apply gather_rows_apply)
open Cert.Lib.PlainDot (mm mm_apply)
open Cert.Lib.Real (IsReal)
open Cert.Lib.ScatterTally (tally tally_congr scatter_entries_apply)

variable (h : BaseFacts) {M : Nat} (g : BinFacts M)

/-! ## The per-incidence scalar -/

section Scalar

variable (hM : 50000 ≤ M) (x1 : IVec SI 32) (x2 : FVec Ideal SE .f32)
  (hd : ∀ e : Fin 640000, 0 ≤ (x1 (ix2 (1 : Fin 2) e)).toInt ∧ (x1 (ix2 (1 : Fin 2) e)).toInt < 50000)

include hM hd in
/-- The scalar of incidence e, with the destination factor read as the degree of dst e: no trace of M is left. -/
theorem vals_at (e : Fin 640000) :
    vals h g x1 x2 (ix1 e)
      = (nodeFac h x1 (ix1 (srcRow (by decide : 0 < 50000) (col h (wrap h 50000#32 (srcv h x1))) e))
          * Ideal.div ((1 : ℝ) : EReal)
              ((((degree h (dstv h x1) (x1 (ix2 (1 : Fin 2) e)).toInt).toInt : ℝ) : EReal) + ((Consts.eps : ℝ) : EReal)))
        * x2 (ix1 e) := by
  have hMpos : 0 < M := by omega
  have hv : ∀ e : Fin 640000, 0 ≤ (dstv h x1 (ix1 e)).toInt := fun e => by rw [dstv_apply]; exact (hd e).1
  have hidx : col h (wrap h (BitVec.ofNat 32 M) (dstv h x1)) (ix2 e (0 : Fin 1)) = x1 (ix2 (1 : Fin 2) e) := by
    rw [colWrap_apply h _ _ e (hv e), dstv_apply]
  have hlt : (x1 (ix2 (1 : Fin 2) e)).toInt.toNat < M := by have := hd e; omega
  have hrow : srcRow hMpos (col h (wrap h (BitVec.ofNat 32 M) (dstv h x1))) e
      = ⟨(x1 (ix2 (1 : Fin 2) e)).toInt.toNat, hlt⟩ := by
    refine Fin.ext ?_
    show min (col h (wrap h (BitVec.ofNat 32 M) (dstv h x1)) (ix2 e (0 : Fin 1))).toInt.toNat (M - 1)
      = (x1 (ix2 (1 : Fin 2) e)).toInt.toNat
    rw [hidx]
    omega
  unfold vals
  rw [mulf_apply, mulf_apply, gather_entries_apply (by decide : 0 < 50000), gather_entries_apply hMpos, hrow,
    edgeFac_apply h g x1 hv]
  have hcast : (((⟨(x1 (ix2 (1 : Fin 2) e)).toInt.toNat, hlt⟩ : Fin M).val : ℕ) : ℤ) = (x1 (ix2 (1 : Fin 2) e)).toInt :=
    Int.toNat_of_nonneg (hd e).1
  rw [hcast]

include hM hd in
/-- The scalar of every incidence is a real number, given finite weights. -/
theorem vals_isReal (h2 : ∀ i, IsReal (x2 i)) (e : Fin 640000) : IsReal (vals h g x1 x2 (ix1 e)) := by
  rw [vals_at h g hM x1 x2 hd e]
  exact ((nodeFac_isReal h x1 _).mul (edgeFac_isReal _)).mul (h2 _)

end Scalar

end Cert.Hyper

end
-- ==== Proof.LibHostConv.lean ====
/-
  The projection crosses the segment sum, stated for the host's accumulating scatter itself.

  Gathering rows of the projected table X·W along the edges' source indices, weighting each by its edge's scalar and
  adding them into the rows named by the destination indices gives, at (i, j), the same as doing so with X and then
  projecting row i of the result by W — for real-valued data.  This is the general law of the weighted segment sum,
  with the scatter written as the host operation rather than as the function it denotes on exact values.
-/
import proofs.«171437_j34454227648547_2_alg».proof.Proof.LibConvLinear

noncomputable section

open scoped BigOperators

namespace Cert.Lib.HostConv

open Idealize.ShloMosaic Idealize.ShloMosaic.ValueIdx
open Cert.Lib.SegmentRows (rowsG rowsS)
open Cert.Lib.PlainDot (mm)

/-- The host's weighted gather-and-scatter of X·W at (i, j) is row i of the host's weighted gather-and-scatter of X,
    projected by W. -/
theorem host_conv_linear {N E C w : Nat} {φ : FTy} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (X : FVec Ideal ⟨2, ![N, C]⟩ φ) (W : FVec Ideal ⟨2, ![C, C]⟩ φ) (SI DI : IVec ⟨2, ![E, 1]⟩ w)
    (NB : FVec Ideal ⟨2, ![E, C]⟩ φ) (n : Fin E → EReal) (hNB : ∀ e c, NB (ix2 e c) = n e)
    (Z0 : FVec Ideal ⟨2, ![N, C]⟩ φ) (hZ0 : ∀ i, Z0 i = 0)
    (hX : ∀ i, ∃ r : ℝ, X i = (r : EReal)) (hW : ∀ i, ∃ r : ℝ, W i = (r : EReal)) (hn : ∀ e, ∃ r : ℝ, n e = (r : EReal))
    (i : Fin N) (j : Fin C) :
    Host.scatterAdd (F := Ideal) (φ := φ) (rowsS N E C wfS) Z0 DI
        (mulf (F := Ideal) (Host.gather (rowsG N E C wfG) (mm X W : FVec Ideal ⟨2, ![N, C]⟩ φ) SI) NB) (ix2 i j)
      = ∑ k : Fin C, Host.scatterAdd (F := Ideal) (φ := φ) (rowsS N E C wfS) Z0 DI
          (mulf (F := Ideal) (Host.gather (rowsG N E C wfG) X SI) NB) (ix2 i k) * W (ix2 k j) :=
  Cert.Lib.ConvLinear.conv_linear hN wfS wfG X W SI DI NB n hNB Z0 hZ0 hX hW hn i j

end Cert.Lib.HostConv

end
-- ==== Proof.HyperLaw.lean ====
/-
  The law that joins the two programs: the per-incidence scalars of the two programs coincide (they differ only in the
  number of bins of the destination histogram) and are real numbers, and for real data the projection by W crosses the
  weighted segment sum.
-/
import proofs.«171437_j34454227648547_2_alg».proof.Proof.HyperScalar
import proofs.«171437_j34454227648547_2_alg».proof.Proof.LibHostConv

noncomputable section

open scoped BigOperators

namespace Cert.Hyper

open Idealize.ShloMosaic Idealize.ShloMosaic.ValueIdx
open Cert.Lib.SegmentRows (rowsG rowsS entriesG entriesS srcRow pos1 eq_ix1_pos gather_entries_apply gather_rows_apply)
open Cert.Lib.PlainDot (mm mm_apply)
open Cert.Lib.Real (IsReal)
open Cert.Lib.ScatterTally (tally tally_congr scatter_entries_apply)

variable (h : BaseFacts) {M : Nat} (g : BinFacts M)

/-! ## The two programs -/

variable (gk : BinFacts 50000) (gr : BinFacts 640000)

/-- The scalars do not depend on the number of bins of the destination histogram, for destinations below 50000. -/
theorem vals_eq (x1 : IVec SI 32) (x2 : FVec Ideal SE .f32)
    (hd : ∀ e : Fin 640000, 0 ≤ (x1 (ix2 (1 : Fin 2) e)).toInt ∧ (x1 (ix2 (1 : Fin 2) e)).toInt < 50000)
    (e : Fin 640000) : vals h gr x1 x2 (ix1 e) = vals h gk x1 x2 (ix1 e) := by
  rw [vals_at h gr (by decide) x1 x2 hd e, vals_at h gk (by decide) x1 x2 hd e]

/-- The spread scalars agree too. -/
theorem spread_eq (x1 : IVec SI 32) (x2 : FVec Ideal SE .f32)
    (hd : ∀ e : Fin 640000, 0 ≤ (x1 (ix2 (1 : Fin 2) e)).toInt ∧ (x1 (ix2 (1 : Fin 2) e)).toInt < 50000) :
    spread h gr x1 x2 = spread h gk x1 x2 := by
  funext p
  obtain ⟨e, c, rfl⟩ : ∃ (e : Fin 640000) (c : Fin 128), p = ix2 e c := ⟨p 0, p 1, eq_ix2 p⟩
  rw [spread_apply, spread_apply, vals_eq h gk gr x1 x2 hd e]

/-- THE LAW: for finite x, w, W and destinations in [0, 50000), projecting before the weighted segment sum (with the
    640000-bin histogram) is the plain product of the unprojected aggregation (with the 50000-bin histogram) by W. -/
theorem proj_crosses (x0 : FVec Ideal SX .f32) (x1 : IVec SI 32)
    (x2 : FVec Ideal SE .f32) (x3 : FVec Ideal SW .f32)
    (h0 : ∀ i, IsReal (x0 i)) (h2 : ∀ i, IsReal (x2 i)) (h3 : ∀ i, IsReal (x3 i))
    (hd : ∀ e : Fin 640000, 0 ≤ (x1 (ix2 (1 : Fin 2) e)).toInt ∧ (x1 (ix2 (1 : Fin 2) e)).toInt < 50000) :
    projAgg h gr x0 x1 x2 x3 = mm (agg h gk x0 x1 x2) x3 := by
  funext q
  obtain ⟨i, j, rfl⟩ : ∃ (i : Fin 50000) (j : Fin 128), q = ix2 i j := ⟨q 0, q 1, eq_ix2 q⟩
  rw [mm_apply]
  unfold projAgg agg
  rw [Cert.Lib.PlainDot.dotGeneral, spread_eq h gk gr x1 x2 hd]
  have key := Cert.Lib.HostConv.host_conv_linear (by decide : 0 < 50000) h.wSX h.wGX x0 x3
    (col h (wrap h 50000#32 (dstv h x1))) (col h (srcv h x1)) (spread h gk x1 x2)
    (fun e => vals h gk x1 x2 (ix1 e)) (fun e c => spread_apply h gk x1 x2 e c)
    (fillF h.b0X 0x00000000#32) (fun i => by rw [fillF_apply]; exact Ideal.ofBits_zero_f32)
    h0 h3 (fun e => vals_isReal h gk (by decide) x1 x2 hd h2 e) i j
  exact key

end Cert.Hyper

end
-- ==== Proof.KernelHost.lean ====
/-
  What the region finds in the aggregated array: the host operations before the kernel's launch compute, from the
  argument arrays, the weighted destination rows of x summed per source node (the aggregation with no projection),
  with the destination histogram built over 50000 bins.
-/
import proofs.«171437_j34454227648547_2_alg».proof.Proof.Gen.KernelIdeal.Frame
import proofs.«171437_j34454227648547_2_alg».proof.Proof.HyperSpec
import Idealize.ShloMosaic.Lib.StableHlo.Run

set_option maxRecDepth 16384

noncomputable section

namespace Cert.KernelIdeal.HostPart

open Cert.KernelIdeal Cert.KernelIdeal.Gen Idealize.ShloMosaic Idealize.ShloMosaic.TcCoe Idealize.SL.Sem
open Idealize.ShloMosaic.StableHlo

/-- The shape relations of the aggregation, from the program's stated facts. -/
theorem base : Cert.Hyper.BaseFacts where
  sl0 := Facts₀.slices_S2x640000_S1x640000_0_0
  sl1 := Facts₀.slices_S2x640000_S1x640000_1_0
  sc := Facts₀.shapeCasts_S1x640000_S640000
  b0N := Facts₀.bcast_S_S50000
  b0E := Facts₀.bcast_S_S640000
  bE1 := Facts₀.bcast_S640000_S640000x1_0
  bEC := Facts₀.bcast_S640000x1_S640000x128_0_1
  b0X := Facts₀.bcast_S_S50000x128
  wSN := Facts₀.scatter_S50000_S640000x1_S640000_n_0_0_1_wf
  wGN := Facts₀.gather_S50000_S640000x1_S640000_n_0_n_n_0_1_1_wf
  wGX := Facts₀.gather_S50000x128_S640000x1_S640000x128_1_0_n_n_0_1_1128_wf
  wSX := Facts₀.scatter_S50000x128_S640000x1_S640000x128_1_0_0_1_wf

/-- The destination histogram here has 50000 bins. -/
theorem bins : Cert.Hyper.BinFacts 50000 where
  b0M := Facts₀.bcast_S_S50000
  wSM := Facts₀.scatter_S50000_S640000x1_S640000_n_0_0_1_wf
  wGM := Facts₀.gather_S50000_S640000x1_S640000_n_0_n_n_0_1_1_wf

set_option maxHeartbeats 8000000 in
/-- At the region's entry the first window's array holds the aggregation of the argument arrays. -/
theorem V_agg (m : (ℓ : Loc nD τ sig) → Buf (Elt Ideal) ℓ) (c : Dev nD) :
    (V (F := Ideal) m c main_v60 : Cert.Hyper.SX.Idx → EReal)
      = Cert.Hyper.agg base bins (m ((c : Thread nD τ).loc main_arg0)) (m ((c : Thread nD τ).loc main_arg1))
          (m ((c : Thread nD τ).loc main_arg2)) := by
  show StableHlo.after (List.flatten [hostOps0, hostOps0_1, hostOps0_2, hostOps0_3, hostOps0_4]) (fun b => m (c, b))
      (Proc.devRef .tc main_v60) = _
  simp only [hostOps0, hostOps0_1, hostOps0_2, hostOps0_3, hostOps0_4, List.flatten_cons, List.flatten_nil,
    List.append_nil, List.cons_append, List.nil_append]
  after_results_simp
  rfl

end Cert.KernelIdeal.HostPart

end
-- ==== Proof.KernelBlocks.lean ====
/-
  The kernel's output array as one matrix product.

  The region runs over a grid of 10 points. At point `t` the body reads rows `5000·t … 5000·t + 4999` of the
  `50000 × 128` left array and the whole `128 × 128` right array, multiplies them into a zero accumulator, and
  writes the `5000 × 128` product back as rows `5000·t … 5000·t + 4999` of the output. At the exact values the
  conversions to the narrower float type are the identity and the accelerator's product into zero is the plain
  matrix product; a row of a product reads only the same row of the left operand, so each point writes its block of
  rows of the product of the two whole arrays, and the ten blocks of rows cover the output. Hence the output array
  is the product of the two arrays as the region finds them.
-/
import proofs.«171437_j34454227648547_2_alg».proof.Proof.Gen.KernelIdeal.Value
import proofs.«171437_j34454227648547_2_alg».proof.Proof.LibPlainDot
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.PlainDot

variable (m : (ℓ : Loc nD τ sig) → Buf (Elt Ideal) ℓ) (ρ : Dev nD → PrngReg)

/-! ## The body's arithmetic -/

theorem hz : (![0, 0] : Fin 2 → Nat) = fun _ => 0 := funext fun a => by fin_cases a <;> rfl

/-- The body's payload, at the exact values, is the plain product of its two loaded blocks: the shape cast is onto
    the same shape, the narrowing conversions are the identity, and the product into zero is the plain product. -/
theorem pay_eq (x0 : Vec Ideal S5000x128 .f32) (x1 : Vec Ideal S128x128 .f32) :
    k0_pay1 x0 x1 = mm (M := 5000) (K := 128) (N := 128) x0 x1 := by
  show matmul (F := Ideal) dot_S5000x128_S128x128_S5000x128_1_0_0_1_n_n none
      (truncf .bf16 (shapeCast S5000x128 x0 shapeCasts_S5000x128_S5000x128) bitsLt_bf16_f32)
      (truncf .bf16 x1 bitsLt_bf16_f32) (constant (F := Ideal) S5000x128 .f32 0x00000000#32) = _
  rw [shapeCast_self]
  exact matmul_zero (M := 5000) (K := 128) (N := 128) none (truncf .bf16 x0 bitsLt_bf16_f32) (truncf .bf16 x1 bitsLt_bf16_f32)

/-- Row locality at one index: if the column coordinates agree and row `j 0` of the block `x0` is row `i 0` of the
    array `A`, the product of the block at `j` is the product of the array at `i`. -/
theorem point_eq (A : S50000x128.Idx → EReal) (B : S128x128.Idx → EReal) (x0 : S5000x128.Idx → EReal)
    (j : S5000x128.Idx) (i : S50000x128.Idx) (hcol : (i 1).val = (j 1).val)
    (hrow : ∀ k : Fin 128, x0 (ix2 (j 0) k) = A (ix2 (i 0) k)) :
    mm (M := 5000) (K := 128) (N := 128) x0 B j = mm (M := 50000) (K := 128) (N := 128) A B i := by
  show ∑ k : Fin 128, x0 (ix2 (j 0) k) * B (ix2 k (j 1)) = ∑ k : Fin 128, A (ix2 (i 0) k) * B (ix2 k (i 1))
  have e : (i 1 : Fin 128) = j 1 := Fin.ext hcol
  rw [e]
  exact Finset.sum_congr rfl fun k _ => by rw [hrow k]

/-! ## The index maps -/

/-- The printed index maps, decided over the grid: the left window's block row moves with the output's, every
    other block coordinate is zero, and the output's block row at point `t` is `t`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-! ## What a point writes back -/

/-- The right window's block at any point is the whole right array. -/
theorem iblk1_eq (c : Dev nD) (t : Fin cfg0.N) :
    (iblk m c 1 t : S128x128.Idx → EReal) = (V (F := Ideal) m c main_arg3 : S128x128.Idx → EReal) := by
  obtain ⟨e0, e1, e2, e3, e4, e5⟩ := idx_facts t
  funext y
  show V (F := Ideal) m c main_arg3 (((cfg0.win 1).blk t).view.emb y) = V (F := Ideal) m c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the body leaves in the output's buffer is the plain product of the two input blocks. -/
theorem out_eq (x0 : Vec Ideal S5000x128 .f32) (x1 : Vec Ideal S128x128 .f32) :
    out0_2 x0 x1 = mm (M := 5000) (K := 128) (N := 128) x0 x1 := by
  unfold out0_2
  rw [View.canon_unit_zero hz]
  simp only [View.ld_unit_zero (S := S5000x128) hz, View.ld_unit_zero (S := S128x128) hz]
  exact pay_eq x0 x1

/-- Reading an array through point `t`'s block of the output window is reading it at the block's embedded index. -/
theorem read_blk (G : S50000x128.Idx → EReal) (t : Fin cfg0.N) (j : ((cfg0.win 2).xblock (grid0.coords t)).Idx) :
    ((cfg0.win 2).blk t).view.read (Elt Ideal) G j = G (((cfg0.win 2).blk t).view.emb j) := rfl

/-- At one index of point `t`'s block: the product of the left array's block at `t` with `B` is the product of the
    whole left array with `B`, read at the block's place in the output array. -/
theorem blk_point (A : S50000x128.Idx → EReal) (B : S128x128.Idx → EReal) (t : Fin cfg0.N)
    (j : ((cfg0.win 2).xblock (grid0.coords t)).Idx) :
    mm (M := 5000) (K := 128) (N := 128) (((cfg0.win 0).blk t).view.read (Elt Ideal) A) B j
      = mm (M := 50000) (K := 128) (N := 128) A B (((cfg0.win 2).blk t).view.emb j) := by
  obtain ⟨e0, e1, e2, e3, e4, e5⟩ := idx_facts t
  refine point_eq _ _ _ j _ ?_ ?_
  · show win0_2.index t (1 : Fin 2) * 128 + 1 * (j 1).val = (j 1).val
    omega
  · intro k
    show A (((cfg0.win 0).blk t).view.emb (ix2 (j 0) k)) = A (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega

/-- WHAT POINT `t` WRITES BACK is block `t` of the product of the two arrays as the region finds them. -/
theorem flushed_eq (c : Dev nD) (t : Fin cfg0.N) :
    (dats (F := Ideal) m 0 c).flushed 2 t
      = ((cfg0.win 2).blk t).view.read (Elt Ideal)
          (mm (M := 50000) (K := 128) (N := 128) (V (F := Ideal) m c main_v60) (V (F := Ideal) m c main_arg3)) := by
  rw [Value.flushed2, out_eq]
  funext j
  refine Eq.trans ?_ (read_blk (mm (M := 50000) (K := 128) (N := 128) (V (F := Ideal) m c main_v60) (V (F := Ideal) m c main_arg3)) t j).symm
  show mm (M := 5000) (K := 128) (N := 128) (iblk m c 0 t) (iblk m c 1 t) j = _
  rw [iblk1_eq]
  exact blk_point (V (F := Ideal) m c main_v60) (V (F := Ideal) m c main_arg3) t j

/-! ## The blocks cover the output -/

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v61).slice (win0_2.rect t)).set ↔ _
  rw [View.set_slice_whole, Rect.mem_set_unit]
  exact Iff.rfl

/-- Row `r` of the output is covered by point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The output array, and the run -/

/-- THE OUTPUT ARRAY after the run is the product of the two arrays as the region finds them. -/
theorem final (c : Dev nD) :
    (dats (F := Ideal) m 0 c).arrAt 2 cfg0.N
      = mm (M := 50000) (K := 128) (N := 128) (V (F := Ideal) m c main_v60) (V (F := Ideal) m c main_arg3) :=
  (dats (F := Ideal) m 0 c).arrAt_eq_of_cover 2 _ (fun t _ => flushed_eq m c t) cover

/-- The run re-posted: the output array is the product of the left array as the region finds it and the right
    argument as launched, and the arguments are unchanged. -/
theorem run : θ_run defs (onTc (τ := τ) (main (F := Ideal))) ⟨m, fun _ => 0, ρ⟩ fun r => ∀ c : Dev nD,
      r.2.mem ((c : Thread nD τ).loc main_v61)
        = mm (M := 50000) (K := 128) (N := 128) (V (F := Ideal) m c main_v60) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by rw [final, V_main_arg3]), (h c).2⟩) (Value.run_blocks m ρ)

end Cert.KernelIdeal.Blocks

end
-- ==== Proof.RefHost.lean ====
/-
  The reference's result as one function of the argument arrays: the weighted destination rows of the projected table
  x·W summed per source node, with the destination histogram built over 640000 bins.
-/
import proofs.«171437_j34454227648547_2_alg».proof.Proof.Gen.ReferenceIdeal.Read
import proofs.«171437_j34454227648547_2_alg».proof.Proof.HyperSpec

set_option maxRecDepth 16384

noncomputable section

namespace Cert.ReferenceIdeal.HostPart

open Cert.ReferenceIdeal Cert.ReferenceIdeal.Gen Idealize.ShloMosaic

/-- The shape relations of the aggregation, from the program's stated facts. -/
theorem base : Cert.Hyper.BaseFacts where
  sl0 := Facts₀.slices_S2x640000_S1x640000_0_0
  sl1 := Facts₀.slices_S2x640000_S1x640000_1_0
  sc := Facts₀.shapeCasts_S1x640000_S640000
  b0N := Facts₀.bcast_S_S50000
  b0E := Facts₀.bcast_S_S640000
  bE1 := Facts₀.bcast_S640000_S640000x1_0
  bEC := Facts₀.bcast_S640000x1_S640000x128_0_1
  b0X := Facts₀.bcast_S_S50000x128
  wSN := Facts₀.scatter_S50000_S640000x1_S640000_n_0_0_1_wf
  wGN := Facts₀.gather_S50000_S640000x1_S640000_n_0_n_n_0_1_1_wf
  wGX := Facts₀.gather_S50000x128_S640000x1_S640000x128_1_0_n_n_0_1_1128_wf
  wSX := Facts₀.scatter_S50000x128_S640000x1_S640000x128_1_0_0_1_wf

/-- The destination histogram here has 640000 bins. -/
theorem bins : Cert.Hyper.BinFacts 640000 where
  b0M := Facts₀.bcast_S_S640000
  wSM := Facts₀.scatter_S640000_S640000x1_S640000_n_0_0_1_wf
  wGM := Facts₀.gather_S640000_S640000x1_S640000_n_0_n_n_0_1_1_wf

/-- The reference's last stage is the project-first aggregation of its arguments. -/
theorem val_eq (x0 : FVec Ideal Cert.Hyper.SX .f32) (x1 : IVec Cert.Hyper.SI 32) (x2 : FVec Ideal Cert.Hyper.SE .f32)
    (x3 : FVec Ideal Cert.Hyper.SW .f32) :
    Cert.ReferenceIdeal.Read.val_main_v61 (F := Ideal) x0 x1 x2 x3 = Cert.Hyper.projAgg base bins x0 x1 x2 x3 := rfl

end Cert.ReferenceIdeal.HostPart

end
-- ==== Proof.lean ====
/-
  A hypergraph convolution: the kernel aggregates the weighted destination rows of x per source node on the host and
  projects the aggregate by W in a row-tiled matrix product on the accelerator; the reference projects x by W first
  and aggregates the projected rows.  Both weight incidence e by
      (source degree at src e) ^ (−1/2) · 1 / (destination degree at dst e + ε) · w e,
  the destination degrees tallied into 50000 bins by the kernel and into 640000 bins by the reference.

  The claim is stated for finite x, w, W and destination indices in [0, 50000) — the rows of x·W the reference reads.
  Under it both programs read the same tally at dst e, every weight is a real number, and the projection crosses the
  weighted segment sum: at node i and column j both results are
      ∑ over the incidences e with src e = i, ∑ over k, x (dst e, k) · W (k, j) · v e,
  summed in the two orders.  The kernel's ten row tiles are rows of one plain product, because a row of a product
  depends on the same row of the left operand only.  The casts to bf16 are the identity on exact values, and nothing
  was rewritten by the idealization, so the sanctioned-idealization conjunct is empty.
-/
import proofs.«171437_j34454227648547_2_alg».proof.Defs
import proofs.«171437_j34454227648547_2_alg».proof.Proof.Gen.Kernel
import proofs.«171437_j34454227648547_2_alg».proof.Proof.Gen.Kernel.Frame
import proofs.«171437_j34454227648547_2_alg».proof.Proof.Gen.KernelIdeal
import proofs.«171437_j34454227648547_2_alg».proof.Proof.Gen.KernelIdeal.Frame
import proofs.«171437_j34454227648547_2_alg».proof.Proof.Gen.KernelIdeal.Value
import proofs.«171437_j34454227648547_2_alg».proof.Proof.Gen.ReferenceIdeal
import proofs.«171437_j34454227648547_2_alg».proof.Proof.Gen.ReferenceIdeal.Run
import proofs.«171437_j34454227648547_2_alg».proof.Proof.Gen.ReferenceIdeal.Read
import proofs.«171437_j34454227648547_2_alg».proof.Proof.Gen.Pre_finite_inputs
import proofs.«171437_j34454227648547_2_alg».proof.Proof.PreDecode
import proofs.«171437_j34454227648547_2_alg».proof.Proof.HyperLaw
import proofs.«171437_j34454227648547_2_alg».proof.Proof.KernelHost
import proofs.«171437_j34454227648547_2_alg».proof.Proof.KernelBlocks
import proofs.«171437_j34454227648547_2_alg».proof.Proof.RefHost
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the plain product, by W, of the aggregation of the kernel's arguments: the kernel
    tile by tile, the reference by the law that the projection crosses the weighted segment sum. -/
theorem algebraic : Cert.algebraic_KernelIdeal_ReferenceIdeal := by
  intro m ρ m' ρ' hpre hagree
  refine ⟨fun c => Cert.Lib.PlainDot.mm (Cert.KernelIdeal.Gen.V (F := Ideal) m c Cert.KernelIdeal.main_v60)
      (m ((c : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, hd⟩ := Cert.PreDecode.decode _ _ _ _ (hpre c)
  rw [Cert.ReferenceIdeal.Read.val_main_v61_eq, Cert.ReferenceIdeal.HostPart.val_eq, (hagree c).1, (hagree c).2.1,
    (hagree c).2.2.1, (hagree c).2.2.2]
  beta_reduce
  rw [Cert.KernelIdeal.HostPart.V_agg]
  exact Cert.Hyper.proj_crosses Cert.KernelIdeal.HostPart.base Cert.KernelIdeal.HostPart.bins
    Cert.ReferenceIdeal.HostPart.bins _ _ _ _ h0 h2 h3 hd

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
